-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512x512 : Shape := ⟨3, ![64, 512, 512]⟩
abbrev S64x512 : Shape := ⟨2, ![64, 512]⟩
abbrev S256x256 : Shape := ⟨2, ![256, 256]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg2 : FVec F S64x512 .f32) (main_v33 : IVec S_ 1) : IVec S_ 1 :=
  let main_cst_12 : FVec F S_ .f32 := constant S_ .f32 0x00000000#32
  let main_v34 : FVec F S64x512 .f32 := broadcastInDim S64x512 ![] bcast_S_S64x512 main_cst_12
  let main_v35 : IVec S64x512 1 := cmpf .oeq main_arg2 main_v34
  let main_cst_13 : FVec F S_ .f32 := constant S_ .f32 0x3F800000#32
  let main_v36 : FVec F S64x512 .f32 := broadcastInDim S64x512 ![] bcast_S_S64x512 main_cst_13
  let main_v37 : IVec S64x512 1 := cmpf .oeq main_arg2 main_v36
  let main_v38 : IVec S64x512 1 := ori main_v35 main_v37
  let main_c_14 : IVec S_ 1 := constantI S_ 1 1#1
  let main_v39 : IVec S_ 1 := (fun x v => Host.reduce IntOp.andi x v reducesTo_S64x512_S_d0_1 h_S_) main_v38 main_c_14
  let main_v40 : IVec S_ 1 := andi main_v33 main_v39
  main_v40

def fn_part1 {F : FTy → Type} [FloatOps F] (main_arg2 : FVec F S64x512 .f32) (main_arg4 : FVec F S256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S64x512x256 .f32) (main_arg1 : FVec F S64x512x512 .f32) (main_arg2 : FVec F S64x512 .f32) (main_arg3 : FVec F S256x256 .f32) (main_arg4 : FVec F S256 .f32) (main_arg5 : FVec F S256 .f32) (main_arg6 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S64x512x256 : Shape := ⟨3, ![64, 512, 256]⟩
abbrev S64x512x512 : Shape := ⟨3, ![64, 512, 512]⟩
abbrev S64x512 : Shape := ⟨2, ![64, 512]⟩
abbrev S256x256 : Shape := ⟨2, ![256, 256]⟩
abbrev S256 : Shape := ⟨1, ![256]⟩
abbrev S64x512x1 : Shape := ⟨3, ![64, 512, 1]⟩
abbrev S1x256 : Shape := ⟨2, ![1, 256]⟩
abbrev S64x1x256 : Shape := ⟨3, ![64, 1, 256]⟩
abbrev S1x512x512 : Shape := ⟨3, ![1, 512, 512]⟩
abbrev S1x512x256 : Shape := ⟨3, ![1, 512, 256]⟩
abbrev S1x512x1 : Shape := ⟨3, ![1, 512, 1]⟩
abbrev S1x1x256 : Shape := ⟨3, ![1, 1, 256]⟩
abbrev S512x512 : Shape := ⟨2, ![512, 512]⟩
abbrev S512x256 : Shape := ⟨2, ![512, 256]⟩
abbrev S512x1 : Shape := ⟨2, ![512, 1]⟩
abbrev S_ : Shape := ⟨0, ![]⟩

abbrev nBuf : Space → Nat
  | .hbm => 36
  | .vmem => 22
  | .smem => 0
  | _ => 0

abbrev bufTy : (tb : Table) → Fin (tcTables nBuf tb) → BufTy
  | .hbm, ⟨0, _⟩ => ⟨S64x512x256, .f32⟩
  | .hbm, ⟨1, _⟩ => ⟨S64x512x512, .f32⟩
  | .hbm, ⟨2, _⟩ => ⟨S64x512, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S64x512x1, .f32⟩
  | .hbm, ⟨8, _⟩ => ⟨S1x256, .f32⟩
  | .hbm, ⟨9, _⟩ => ⟨S64x512x256, .f32⟩
  | .hbm, ⟨10, _⟩ => ⟨S64x1x256, .f32⟩
  | .hbm, ⟨11, _⟩ => ⟨S64x1x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x256, .f32⟩
  | .hbm, ⟨16, _⟩ => ⟨S256, .f32⟩
  | .hbm, ⟨17, _⟩ => ⟨S_, .f32⟩
  | .hbm, ⟨18, _⟩ => ⟨S1x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S64x512x256, .f32⟩
  | .local _ .vmem, ⟨0, _⟩ => ⟨S1x512x512, .f32⟩
  | .local _ .vmem, ⟨1, _⟩ => ⟨S1x512x512, .f32⟩
  | .local _ .vmem, ⟨2, _⟩ => ⟨S1x512x256, .f32⟩
  | .local _ .vmem, ⟨3, _⟩ => ⟨S1x512x256, .f32⟩
  | .local _ .vmem, ⟨4, _⟩ => ⟨S1x512x1, .f32⟩
  | .local _ .vmem, ⟨5, _⟩ => ⟨S1x512x1, .f32⟩
  | .local _ .vmem, ⟨6, _⟩ => ⟨S256x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x512x256, .f32⟩
  | .local _ .vmem, ⟨15, _⟩ => ⟨S1x512x256, .f32⟩
  | .local _ .vmem, ⟨16, _⟩ => ⟨S1x512x1, .f32⟩
  | .local _ .vmem, ⟨17, _⟩ => ⟨S1x512x1, .f32⟩
  | .local _ .vmem, ⟨18, _⟩ => ⟨S1x256, .f32⟩
  | .local _ .vmem, ⟨19, _⟩ => ⟨S1x256, .f32⟩
  | .local _ .vmem, ⟨20, _⟩ => ⟨S1x512x256, .f32⟩
  | .local _ .vmem, ⟨21, _⟩ => ⟨S1x512x256, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S64x512_S64x512x1_0_1 : S64x512.BroadcastsInDim S64x512x1 (![0, 1] : Fin 2 → Fin S64x512x1.rank)
  shapeCasts_S256_S1x256 : S256.ShapeCasts S1x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x256_S1x512x256 : S512x256.ShapeCasts S1x512x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x256 : S512x1.Broadcasts S512x256
  reduces_S512x256_S256 : S512x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S64x512_S_d0_1 : S64x512.ReducesTo [0, 1] S_
  h_S_ : 0 < S_.numel
  reducesTo_S64x1x256_S1x256_d0 : S64x1x256.ReducesTo [0] S1x256
  shapeCasts_S1x256_S256 : S1x256.ShapeCasts S256
  bcast_S_S256 : S_.BroadcastsInDim S256 (![] : Fin 0 → Fin S256.rank)
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S64x512x256.size a
  hwx0_1 : ∀ i : grid0.Coords, EltTy.bits .f32 = 32 ∨ (Rect.block (s := S64x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S64x512x256.size a
  hwx0_5 : ∀ i : grid0.Coords, EltTy.bits .f32 = 32 ∨ (Rect.block (s := S64x512x256) S1x512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S64x1x256.size a
  hwx0_7 : ∀ i : grid0.Coords, EltTy.bits .f32 = 32 ∨ (Rect.block (s := S64x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S64x512x256.size a
  hwx1_0 : ∀ i : grid1.Coords, EltTy.bits .f32 = 32 ∨ (Rect.block (s := S64x512x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S64x512x1.size a
  hwx1_1 : ∀ i : grid1.Coords, EltTy.bits .f32 = 32 ∨ (Rect.block (s := S64x512x1) S1x512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x256.size a ≤ S64x512x256.size a
  hwx1_4 : ∀ i : grid1.Coords, EltTy.bits .f32 = 32 ∨ (Rect.block (s := S64x512x256) S1x512x256.size (cc1_transform_4 i) (hinb1_4 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x512x256 : Shape := ⟨3, ![64, 512, 256]⟩
abbrev S64x512x512 : Shape := ⟨3, ![64, 512, 512]⟩
abbrev S64x512 : Shape := ⟨2, ![64, 512]⟩
abbrev S256x256 : Shape := ⟨2, ![256, 256]⟩
abbrev S256 : Shape := ⟨1, ![256]⟩
abbrev S1x1x256 : Shape := ⟨3, ![1, 1, 256]⟩
abbrev S64x512x1 : Shape := ⟨3, ![64, 512, 1]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S64x512x512, .f32⟩
  | .hbm, ⟨2, _⟩ => ⟨S64x512, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S64x512x256, .f32⟩
  | .hbm, ⟨8, _⟩ => ⟨S64x512x256, .f32⟩
  | .hbm, ⟨9, _⟩ => ⟨S1x1x256, .f32⟩
  | .hbm, ⟨10, _⟩ => ⟨S64x512x256, .f32⟩
  | .hbm, ⟨11, _⟩ => ⟨S64x512x256, .f32⟩
  | .hbm, ⟨12, _⟩ => ⟨S64x512x1, .f32⟩
  | .hbm, ⟨13, _⟩ => ⟨S_, .f32⟩
  | .hbm, ⟨14, _⟩ => ⟨S_, .f32⟩
  | .hbm, ⟨15, _⟩ => ⟨S64x512x256, .f32⟩
  | .hbm, ⟨16, _⟩ => ⟨S64x512x256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S1x1x256, .f32⟩
  | .hbm, ⟨22, _⟩ => ⟨S64x512x256, .f32⟩
  | .hbm, ⟨23, _⟩ => ⟨S64x512x256, .f32⟩
  | .hbm, ⟨24, _⟩ => ⟨S64x512x256, .f32⟩
  | .hbm, ⟨25, _⟩ => ⟨S64x512x256, .f32⟩
  | .hbm, ⟨26, _⟩ => ⟨S64x512x256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1x1x256, .f32⟩
  | .hbm, ⟨32, _⟩ => ⟨S64x512x256, .f32⟩
  | .hbm, ⟨33, _⟩ => ⟨S64x512x256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S1x1x256, .f32⟩
  | .hbm, ⟨39, _⟩ => ⟨S64x512x256, .f32⟩
  | .hbm, ⟨40, _⟩ => ⟨S64x512x256, .f32⟩
  | .hbm, ⟨41, _⟩ => ⟨S1x1x256, .f32⟩
  | .hbm, ⟨42, _⟩ => ⟨S64x512x256, .f32⟩
  | .hbm, ⟨43, _⟩ => ⟨S64x512x256, .f32⟩
  | .hbm, ⟨44, _⟩ => ⟨S1x1x256, .f32⟩
  | .hbm, ⟨45, _⟩ => ⟨S64x512x256, .f32⟩
  | .hbm, ⟨46, _⟩ => ⟨S64x512x256, .f32⟩
  | .hbm, ⟨47, _⟩ => ⟨S64x512x256, .f32⟩
  | .hbm, ⟨48, _⟩ => ⟨S64x512x256, .f32⟩
  | .hbm, ⟨49, _⟩ => ⟨S_, .f32⟩
  | .hbm, ⟨50, _⟩ => ⟨S64x512x256, .f32⟩
  | .hbm, ⟨51, _⟩ => ⟨S64x512x256, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_cst : Ref sig .tc := ⟨.hbm, 49, rfl⟩
abbrev main_call0_v0 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  bcast_S64x512_S64x512x1_0_1 : S64x512.BroadcastsInDim S64x512x1 (![0, 1] : Fin 2 → Fin S64x512x1.rank)
  reducesTo_S64x512_S_d0_1 : S64x512.ReducesTo [0, 1] S_
  h_S_ : 0 < S_.numel
  bcast_S64x512x1_S64x512x256_0_1_2 : S64x512x1.BroadcastsInDim S64x512x256 (![0, 1, 2] : Fin 3 → Fin S64x512x256.rank)
  reducesTo_S64x512x256_S256_d0_1 : S64x512x256.ReducesTo [0, 1] S256
  bcast_S_S256 : S_.BroadcastsInDim S256 (![] : Fin 0 → Fin S256.rank)
  bcast_S_S64x512x256 : S_.BroadcastsInDim S64x512x256 (![] : Fin 0 → Fin S64x512x256.rank)
  dot_S64x512x512_S64x512x256_S64x512x256_2_1_1_2_0_0_wf : DotDims.WF S64x512x512 S64x512x256 S64x512x256 [2] [1] [1] [2] [0] [0]
  dot_S64x512x256_S256x256_S64x512x256_2_0_01_1_n_n_wf : DotDims.WF S64x512x256 S256x256 S64x512x256 [2] [0] [0, 1] [1] [] []

variable [Facts₀]

def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf
def dot_S64x512x256_S256x256_S64x512x256_2_0_01_1_n_n : DotDims S64x512x256 S256x256 S64x512x256 where
  lhsContracting := [2]
  rhsContracting := [0]
  lhsNonContracting := [0, 1]
  rhsNonContracting := [1]
  lhsBatch := []
  rhsBatch := []
  wf := dot_S64x512x256_S256x256_S64x512x256_2_0_01_1_n_n_wf

class Facts : Prop extends Facts₀ where

variable [Facts]
-- ==== Proof.Spec.lean ====
/-
  The mathematics of the certificate, free of any program: one graph-convolution layer followed by a masked batch
  normalisation over all valid nodes, a rectifier last, on the extended reals.

  For a batch of 64 graphs with 512 nodes each, `lin` is one entry of `adj · x · W + bias`.  Fix an output column and
  write `y b n` for that column of the layer and `mk b n` for the node mask.  Both programs need the three sums
  `cnt = Σ mk`, `sum1 = Σ y·mk`, `sum2 = Σ (y·mk)·y` over all nodes of all graphs.

  * One program takes the variance as `sum2 / cnt − mean²`, folds the affine map into `scale = γ · rsqrt (var + ε)`,
    `shift = β − mean · scale`, and ends with `max ((y · scale + shift) · mk) 0`  (`kOut`).
  * The other takes the variance as the masked mean of the squared deviations and ends with
    `max ((((y − mean) · rsqrt (var + ε)) · γ + β) · mk) 0`  (`rOut`).

  The operand order of every product and sum below is the order in which the programs apply them, so that each
  program's value is one of these terms on the nose; that the two agree (for finite data and a 0/1 mask) is proved
  in the module on the algebra.
-/
import Mathlib
import Idealize.ShloMosaic.PureOps.Ideal

noncomputable section

namespace Cert.Spec

open Idealize.ShloMosaic

/-- The offset both programs add to the variance under the reciprocal square root (the single-precision number
    nearest to 1e-5, read exactly). -/
def eps : EReal := Ideal.ofBits .f32 0x3727C5AC#32

/-- One entry of the linear layer: row `n` of graph `b` aggregated over its neighbours, then mapped to column `e`. -/
def lin (A : Fin 64 → Fin 512 → Fin 512 → EReal) (X : Fin 64 → Fin 512 → Fin 256 → EReal)
    (W : Fin 256 → Fin 256 → EReal) (bi : Fin 256 → EReal) (b : Fin 64) (n : Fin 512) (e : Fin 256) : EReal :=
  (∑ d : Fin 256, (∑ k : Fin 512, A b n k * X b k d) * W d e) + bi e

/-- The mean: a sum over the valid nodes divided by their number. -/
def mean (S1 N : EReal) : EReal := Ideal.div S1 N

/-- The variance as mean of squares minus squared mean. -/
def kvar (S1 S2 N : EReal) : EReal := Ideal.div S2 N - mean S1 N * mean S1 N

/-- The folded multiplier `γ · rsqrt (var + ε)`. -/
def scale (S1 S2 N g : EReal) : EReal := g * Ideal.rsqrt (kvar S1 S2 N + eps)

/-- The folded offset `β − mean · scale`. -/
def shift (S1 S2 N g be : EReal) : EReal := be - mean S1 N * scale S1 S2 N g

section Column

variable (y mk : Fin 64 → Fin 512 → EReal)

/-- The number of valid nodes. -/
def cnt : EReal := ∑ b : Fin 64, ∑ n : Fin 512, mk b n

/-- The masked sum of a column. -/
def sum1 : EReal := ∑ b : Fin 64, ∑ n : Fin 512, y b n * mk b n

/-- The masked sum of a column's squares. -/
def sum2 : EReal := ∑ b : Fin 64, ∑ n : Fin 512, (y b n * mk b n) * y b n

/-- The output with the affine map folded into one multiplier and one offset. -/
def kOut (g be : EReal) (b : Fin 64) (n : Fin 512) : EReal :=
  max ((y b n * scale (sum1 y mk) (sum2 y mk) (cnt mk) g + shift (sum1 y mk) (sum2 y mk) (cnt mk) g be) * mk b n) 0

/-- The variance as the masked mean of the squared deviations from the mean. -/
def rvar : EReal :=
  Ideal.div (∑ b : Fin 64, ∑ n : Fin 512,
    ((y b n - mean (sum1 y mk) (cnt mk)) * (y b n - mean (sum1 y mk) (cnt mk))) * mk b n) (cnt mk)

/-- The output as centre, normalise, scale, shift, mask, rectify. -/
def rOut (g be : EReal) (b : Fin 64) (n : Fin 512) : EReal :=
  max ((((y b n - mean (sum1 y mk) (cnt mk)) * Ideal.rsqrt (rvar y mk + eps)) * g + be) * mk b n) 0

end Column

end Cert.Spec

end
-- ==== Proof.Algebra.lean ====
/-
  The two arrangements of the masked batch normalisation agree.

  Fix an output column; `y` is that column of the linear layer over all nodes of all graphs and `mk` the node mask.
  Assume every `y b n` is a real number and every `mk b n` is 0 or 1.

  * At a masked-out node (`mk b n = 0`) both outputs are `max (_ · 0) 0 = 0`, whatever the statistics are.
  * At a valid node the number of valid nodes `N = Σ mk` is a real number ≥ 1, so the mean `μ = (Σ y·mk)/N` is real, and
      Σ (y − μ)² mk = Σ (y·mk)·y − 2 μ Σ y·mk + μ² Σ mk = Σ (y·mk)·y − μ² N,
    which, divided by `N`, says that the masked mean of the squared deviations is the mean of squares minus the squared
    mean.  Being a sum of squares with weights ≥ 0 over `N > 0`, this variance `v` is ≥ 0, so `v + ε > 0`, its reciprocal
    square root `ρ` is a positive real, and
      y · (γ ρ) + (β − μ · (γ ρ)) = ((y − μ) · ρ) · γ + β
    is an identity of real numbers.
-/
import Mathlib
import Idealize.ShloMosaic.PureOps.Ideal
import proofs.«169200_j14620068675981_1_alg».proof.Proof.Spec

noncomputable section

namespace Cert.Algebra

open Idealize.ShloMosaic Cert.Spec

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same for a sum over all nodes of all graphs. -/
theorem coe_sum2 (f : Fin 64 → Fin 512 → ℝ) :
    (∑ b : Fin 64, ∑ n : Fin 512, ((f b n : ℝ) : EReal)) = ((∑ b : Fin 64, ∑ n : Fin 512, f b n : ℝ) : EReal) :=
  (Finset.sum_congr rfl fun b _ => coe_sum Finset.univ (f b)).trans (coe_sum Finset.univ fun b => ∑ n, f b n)

/-- The variance offset is a positive real number. -/
theorem eps_pos : ∃ r : ℝ, 0 < r ∧ eps = (r : EReal) := by
  refine ⟨(10995116 : ℝ) * (2 : ℝ) ^ (-40 : ℤ), by positivity, ?_⟩
  unfold eps
  simp [Ideal.ofBits, Ideal.ieee, -EReal.coe_mul]

/-- Expanding the square under the masked sum. -/
theorem sum_sq_dev (yr mr : Fin 64 → Fin 512 → ℝ) (μ : ℝ) :
    (∑ b : Fin 64, ∑ n : Fin 512, ((yr b n - μ) * (yr b n - μ)) * mr b n)
      = (∑ b : Fin 64, ∑ n : Fin 512, (yr b n * mr b n) * yr b n) - 2 * μ * (∑ b : Fin 64, ∑ n : Fin 512, yr b n * mr b n)
        + μ * μ * (∑ b : Fin 64, ∑ n : Fin 512, mr b n) := by
  simp only [Finset.mul_sum, ← Finset.sum_sub_distrib, ← Finset.sum_add_distrib]
  exact Finset.sum_congr rfl fun b _ => Finset.sum_congr rfl fun n _ => by ring

/-- Mean of squared deviations = mean of squares − squared mean, for weights with a non-zero total. -/
theorem var_identity (yr mr : Fin 64 → Fin 512 → ℝ) (hN : (∑ b : Fin 64, ∑ n : Fin 512, mr b n) ≠ 0) :
    (∑ b : Fin 64, ∑ n : Fin 512,
        ((yr b n - (∑ b : Fin 64, ∑ n : Fin 512, yr b n * mr b n) * (1 / (∑ b : Fin 64, ∑ n : Fin 512, mr b n)))
          * (yr b n - (∑ b : Fin 64, ∑ n : Fin 512, yr b n * mr b n) * (1 / (∑ b : Fin 64, ∑ n : Fin 512, mr b n)))) * mr b n)
        * (1 / (∑ b : Fin 64, ∑ n : Fin 512, mr b n))
      = (∑ b : Fin 64, ∑ n : Fin 512, (yr b n * mr b n) * yr b n) * (1 / (∑ b : Fin 64, ∑ n : Fin 512, mr b n))
        - ((∑ b : Fin 64, ∑ n : Fin 512, yr b n * mr b n) * (1 / (∑ b : Fin 64, ∑ n : Fin 512, mr b n)))
          * ((∑ b : Fin 64, ∑ n : Fin 512, yr b n * mr b n) * (1 / (∑ b : Fin 64, ∑ n : Fin 512, mr b n))) := by
  rw [sum_sq_dev]
  field_simp
  ring

/-- The linear layer of real arrays is real: finite sums and products of real numbers. -/
theorem lin_real (A : Fin 64 → Fin 512 → Fin 512 → EReal) (X : Fin 64 → Fin 512 → Fin 256 → EReal)
    (W : Fin 256 → Fin 256 → EReal) (bi : Fin 256 → EReal)
    (hA : ∀ b n k, ∃ r : ℝ, A b n k = (r : EReal)) (hX : ∀ b k d, ∃ r : ℝ, X b k d = (r : EReal))
    (hW : ∀ d e, ∃ r : ℝ, W d e = (r : EReal)) (hb : ∀ e, ∃ r : ℝ, bi e = (r : EReal))
    (b : Fin 64) (n : Fin 512) (e : Fin 256) : ∃ r : ℝ, lin A X W bi b n e = (r : EReal) := by
  choose Ar hAr using hA
  choose Xr hXr using hX
  choose Wr hWr using hW
  choose br hbr using hb
  refine ⟨(∑ d : Fin 256, (∑ k : Fin 512, Ar b n k * Xr b k d) * Wr d e) + br e, ?_⟩
  unfold lin
  simp only [hAr, hXr, hWr, hbr, ← EReal.coe_mul, coe_sum, ← EReal.coe_add]

/-! ## The statistics as real numbers -/

section Real

variable (yr mr : Fin 64 → Fin 512 → ℝ)

/-- The number of valid nodes. -/
def Nr : ℝ := ∑ b : Fin 64, ∑ n : Fin 512, mr b n
/-- The masked sum of the column. -/
def S1r : ℝ := ∑ b : Fin 64, ∑ n : Fin 512, yr b n * mr b n
/-- The masked sum of its squares. -/
def S2r : ℝ := ∑ b : Fin 64, ∑ n : Fin 512, (yr b n * mr b n) * yr b n
/-- The mean. -/
def μr : ℝ := S1r yr mr * (1 / Nr mr)
/-- Mean of squares minus squared mean. -/
def vkr : ℝ := S2r yr mr * (1 / Nr mr) - μr yr mr * μr yr mr
/-- The masked sum of squared deviations. -/
def Dr : ℝ := ∑ b : Fin 64, ∑ n : Fin 512, ((yr b n - μr yr mr) * (yr b n - μr yr mr)) * mr b n
/-- The masked mean of squared deviations. -/
def vrr : ℝ := Dr yr mr * (1 / Nr mr)

theorem vrr_eq_vkr (hN : Nr mr ≠ 0) : vrr yr mr = vkr yr mr := by
  unfold vrr vkr Dr μr S1r S2r Nr at *
  exact var_identity yr mr hN

theorem vrr_nonneg (hm0 : ∀ b n, 0 ≤ mr b n) (hN : 0 < Nr mr) : 0 ≤ vrr yr mr := by
  unfold vrr
  refine mul_nonneg ?_ (by positivity)
  unfold Dr
  exact Finset.sum_nonneg fun b _ => Finset.sum_nonneg fun n _ => mul_nonneg (mul_self_nonneg _) (hm0 b n)

theorem cnt_coe : cnt (fun b n => (mr b n : EReal)) = (Nr mr : EReal) := coe_sum2 _

theorem sum1_coe : sum1 (fun b n => (yr b n : EReal)) (fun b n => (mr b n : EReal)) = (S1r yr mr : EReal) := by
  unfold sum1 S1r; simp only [← EReal.coe_mul]; exact coe_sum2 _

theorem sum2_coe : sum2 (fun b n => (yr b n : EReal)) (fun b n => (mr b n : EReal)) = (S2r yr mr : EReal) := by
  unfold sum2 S2r; simp only [← EReal.coe_mul]; exact coe_sum2 _

theorem mean_coe (hN : Nr mr ≠ 0) : mean (S1r yr mr : EReal) (Nr mr : EReal) = (μr yr mr : EReal) := by
  unfold mean μr; rw [Ideal.div_coe hN, ← EReal.coe_mul]

theorem kvar_coe (hN : Nr mr ≠ 0) : kvar (S1r yr mr : EReal) (S2r yr mr : EReal) (Nr mr : EReal) = (vkr yr mr : EReal) := by
  unfold kvar vkr; rw [mean_coe yr mr hN, Ideal.div_coe hN, ← EReal.coe_mul, ← EReal.coe_mul, ← EReal.coe_sub]

theorem rvar_coe (hN : Nr mr ≠ 0) : rvar (fun b n => (yr b n : EReal)) (fun b n => (mr b n : EReal)) = (vrr yr mr : EReal) := by
  unfold rvar vrr Dr
  rw [sum1_coe, cnt_coe, mean_coe yr mr hN]
  simp only [← EReal.coe_sub, ← EReal.coe_mul]
  rw [coe_sum2, Ideal.div_coe hN, ← EReal.coe_mul]

/-- The reciprocal square root of a positive real number is the real one. -/
theorem rsqrt_pos (v : ℝ) (hv : 0 < v) : Ideal.rsqrt (v : EReal) = (((Real.sqrt v)⁻¹ : ℝ) : EReal) := by
  rw [Ideal.rsqrt_coe, if_neg (not_lt.2 hv.le), if_neg hv.ne']

/-- At real data, non-negative weights and at least one valid node, the two outputs agree. -/
theorem out_eq_of_real (gr br : ℝ) (hm0 : ∀ b n, 0 ≤ mr b n) (hN : 0 < Nr mr) (b : Fin 64) (n : Fin 512) :
    kOut (fun b n => (yr b n : EReal)) (fun b n => (mr b n : EReal)) (gr : EReal) (br : EReal) b n
      = rOut (fun b n => (yr b n : EReal)) (fun b n => (mr b n : EReal)) (gr : EReal) (br : EReal) b n := by
  obtain ⟨er, her, hE⟩ := eps_pos
  have hN' : Nr mr ≠ 0 := hN.ne'
  have hv : vrr yr mr = vkr yr mr := vrr_eq_vkr yr mr hN'
  have hpos : 0 < vkr yr mr + er := by
    have := vrr_nonneg yr mr hm0 hN
    rw [hv] at this
    linarith
  unfold kOut rOut shift scale
  rw [rvar_coe yr mr hN', sum1_coe, sum2_coe, cnt_coe, kvar_coe yr mr hN', mean_coe yr mr hN', hE, hv,
    ← EReal.coe_add, rsqrt_pos _ hpos]
  simp only [← EReal.coe_mul, ← EReal.coe_sub, ← EReal.coe_add]
  congr 2
  ring

end Real

/-! ## The theorem -/

/-- For a real-valued column, a 0/1 mask and real affine parameters the two outputs agree at every node. -/
theorem kOut_eq_rOut (y mk : Fin 64 → Fin 512 → EReal) (g be : EReal)
    (hy : ∀ b n, ∃ r : ℝ, y b n = (r : EReal)) (hm : ∀ b n, mk b n = 0 ∨ mk b n = 1)
    (hg : ∃ r : ℝ, g = (r : EReal)) (hb : ∃ r : ℝ, be = (r : EReal)) (b : Fin 64) (n : Fin 512) :
    kOut y mk g be b n = rOut y mk g be b n := by
  rcases hm b n with h0 | h1
  · unfold kOut rOut
    rw [h0, mul_zero, mul_zero]
  · choose yr hyr using hy
    obtain ⟨gr, rfl⟩ := hg
    obtain ⟨br, rfl⟩ := hb
    have hmr : ∀ b n, ∃ r : ℝ, 0 ≤ r ∧ mk b n = (r : EReal) := fun b n => by
      rcases hm b n with h | h
      · exact ⟨0, le_refl _, by rw [h, EReal.coe_zero]⟩
      · exact ⟨1, zero_le_one, by rw [h, EReal.coe_one]⟩
    choose mr hmr0 hmr using hmr
    obtain rfl : y = fun b n => (yr b n : EReal) := funext fun b => funext fun n => hyr b n
    obtain rfl : mk = fun b n => (mr b n : EReal) := funext fun b => funext fun n => hmr b n
    have h1'' : ((mr b n : ℝ) : EReal) = 1 := h1
    have h1' : mr b n = 1 := by exact_mod_cast h1''
    have hN : 0 < Nr mr := by
      have h1n : mr b n ≤ ∑ n : Fin 512, mr b n := Finset.single_le_sum (fun n _ => hmr0 b n) (Finset.mem_univ n)
      have h1b : (∑ n : Fin 512, mr b n) ≤ ∑ b : Fin 64, ∑ n : Fin 512, mr b n :=
        Finset.single_le_sum (f := fun b => ∑ n : Fin 512, mr b n) (fun b _ => Finset.sum_nonneg fun n _ => hmr0 b n) (Finset.mem_univ b)
      unfold Nr
      linarith
    exact out_eq_of_real yr mr gr br hmr0 hN b n

end Cert.Algebra

end
-- ==== Proof.PreDecode.lean ====
/-
  What the precondition says of the input arrays, entry by entry.

  The precondition is a conjunction of eight tests, each taken over every entry of one array: for each of the seven
  arrays, `|x| < +∞`; and for the mask, `x = 0 ∨ x = 1`.  On the extended reals `|x| = max x (−x) < +∞` excludes exactly
  the two infinities, so every entry is a real number; and the last test says the mask is a 0/1 array.
-/
import proofs.«169200_j14620068675981_1_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Cert.Pre_finite_inputs

/-- A scalar array has one index. -/
instance subsingleton_scalar : Subsingleton S_.Idx := ⟨fun _ _ => funext fun d => d.elim0⟩

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | top => simp at hlt
  | coe r => exact ⟨r, rfl⟩

/-- The equality test answers 1 only on equal extended reals. -/
theorem eq_of_cmp_oeq (x c : EReal) (h : Ideal.cmp .oeq x c = 1#1) : x = c := by
  unfold Ideal.cmp at h
  by_contra hn
  simp [hn] at h

/-- The single-precision pattern of 1.0 is the number 1. -/
theorem ofBits_one : Ideal.ofBits .f32 0x3F800000#32 = 1 := by
  simp [Ideal.ofBits, Ideal.ieee, -EReal.coe_mul]; norm_num

variable [Cert.Pre_finite_inputs.Facts]

/-- Under the precondition every entry of every input is a real number, and every mask entry is 0 or 1. -/
theorem decode (a0 : FVec Ideal S64x512x256 .f32) (a1 : FVec Ideal S64x512x512 .f32) (a2 : FVec Ideal S64x512 .f32)
    (a3 : FVec Ideal S256x256 .f32) (a4 a5 a6 : FVec Ideal S256 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, a2 i = 0 ∨ a2 i = 1) := by
  have h0 := congrFun h ValueIdx.ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  refine ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i),
    fun i => real_of_abs_lt_top _ (Host.reduce_andi_all _ _ _ _ _ e3 i),
    fun i => real_of_abs_lt_top _ (Host.reduce_andi_all _ _ _ _ _ e4 i),
    fun i => real_of_abs_lt_top _ (Host.reduce_andi_all _ _ _ _ _ e5 i),
    fun i => real_of_abs_lt_top _ (Host.reduce_andi_all _ _ _ _ _ e6 i), fun i => ?_⟩
  have hi := Host.reduce_andi_all _ _ _ _ _ e7 i
  rcases IntOp.ori_eq_one.1 hi with hz | ho
  · exact Or.inl ((eq_of_cmp_oeq _ _ hz).trans Ideal.ofBits_zero_f32)
  · exact Or.inr ((eq_of_cmp_oeq _ _ ho).trans ofBits_one)

end Cert.PreDecode

end
-- ==== Proof.RefValue.lean ====
/-
  The reference program's value is the specification's `rOut`.

  The reference computes one graph-convolution layer `y = adj · x · W + bias`, then a masked batch normalisation of each
  output column over all nodes of all graphs (mean and variance as masked sums divided by the number of valid nodes),
  an affine map, the mask once more, and a rectifier.  Read at one output index `(b, n, e)`, every operation is an
  operation of the extended reals on the operands at that index; the two sums over the batch and node axes are double
  sums over the coordinates.  Put together, the value at `(b, n, e)` is `Cert.Spec.rOut` of column `e` of the layer.
-/
import proofs.«169200_j14620068675981_1_alg».proof.Proof.Gen.ReferenceIdeal.Read
import proofs.«169200_j14620068675981_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.RefValue

open Cert.ReferenceIdeal Cert.ReferenceIdeal.Gen Cert.ReferenceIdeal.Read Idealize.ShloMosaic Idealize.ShloMosaic.ValueIdx
open scoped BigOperators

/-! ## Sums over the index set of a rank-3 array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the batch and node coordinates of an index `(b, n, c)` leaves the column `c`. -/
theorem drop_ix3 (b : Fin 64) (n : Fin 512) (c : Fin 256) :
    reducesTo_S64x512x256_S256_d0_1.drop (ix3 b n c) = ix1 c := by
  funext a
  match a with
  | ⟨0, _⟩ => exact Fin.ext (Shape.ReducesTo.drop_apply_val_of_eq reducesTo_S64x512x256_S256_d0_1 (ix3 b n c) 0 2)

/-- The sum over the batch and node axes of a `[64, 512, 256]` array, read at column `e`: the initial value plus the
    double sum over graphs and nodes of the array at `(b, n, e)`. -/
theorem hostReduceAdd_d01 (x : S64x512x256.Idx → EReal) (init : EReal) (e : Fin 256) :
    Ideal.hostReduceAdd reducesTo_S64x512x256_S256_d0_1 x init (ix1 e)
      = init + ∑ b : Fin 64, ∑ n : Fin 512, x (ix3 b n e) := by
  unfold Ideal.hostReduceAdd
  refine congrArg (init + ·) ?_
  rw [Finset.sum_filter, sum_idx3]
  refine Finset.sum_congr rfl fun b _ => Finset.sum_congr rfl fun n _ => ?_
  have hc : ∀ c : Fin 256, (reducesTo_S64x512x256_S256_d0_1.drop (ix3 b n c) = ix1 e) ↔ c = e := by
    intro c
    rw [drop_ix3]
    constructor
    · intro h; exact congrFun h 0
    · intro h; rw [h]
  simp only [hc]
  rw [Finset.sum_ite_eq' Finset.univ e (fun c => x (ix3 b n c)), if_pos (Finset.mem_univ e)]

/-! ## The layer -/

section Layer

variable (x0 : (⟨S64x512x256, .f32⟩ : BufTy).Contents (Elt Ideal)) (x1 : (⟨S64x512x512, .f32⟩ : BufTy).Contents (Elt Ideal))
  (x2 : (⟨S64x512, .f32⟩ : BufTy).Contents (Elt Ideal)) (x3 : (⟨S256x256, .f32⟩ : BufTy).Contents (Elt Ideal))
  (x4 x5 x6 : (⟨S256, .f32⟩ : BufTy).Contents (Elt Ideal))

/-- The aggregation `adj · x` at `(b, n, d)`: the sum over the neighbours `k` of `adj (b, n, k) · x (b, k, d)`. -/
theorem agg_value (b : Fin 64) (n : Fin 512) (d : Fin 256) :
    val_main_v0 (F := Ideal) x0 x1 (ix3 b n d) = ∑ k : Fin 512, x1 (ix3 b n k) * x0 (ix3 b k d) := by
  rw [val_main_v0_apply]
  refine Finset.sum_congr rfl fun k _ => ?_
  have el : lidx_main_v0 (ix3 b n d) k = ix3 b n k := by
    funext a
    match a with
    | ⟨0, _⟩ => rfl
    | ⟨1, _⟩ => rfl
    | ⟨2, _⟩ => rfl
  have er : ridx_main_v0 (ix3 b n d) k = ix3 b k d := by
    funext a
    match a with
    | ⟨0, _⟩ => rfl
    | ⟨1, _⟩ => rfl
    | ⟨2, _⟩ => rfl
  rw [el, er]

/-- The layer `adj · x · W + bias` at `(b, n, e)` is the specification's `lin`. -/
theorem layer_value (b : Fin 64) (n : Fin 512) (e : Fin 256) :
    val_main_v4 (F := Ideal) x0 x1 x3 x4 (ix3 b n e)
      = Cert.Spec.lin (fun b n k => x1 (ix3 b n k)) (fun b k d => x0 (ix3 b k d)) (fun d e => x3 (ix2 d e))
          (fun e => x4 (ix1 e)) b n e := by
  rw [val_main_v4_apply, val_main_v1_apply, val_main_v3_apply, val_main_v2_apply]
  unfold Cert.Spec.lin
  show (∑ k : Fin 256, _) + _ = _
  have eb : idx_main_v2 (idx_main_v3 (ix3 b n e)) = ix1 e := by
    funext a
    match a with
    | ⟨0, _⟩ => rfl
  rw [eb]
  refine congrArg (· + x4 (ix1 e)) ?_
  refine Finset.sum_congr rfl fun d _ => ?_
  have el : lidx_main_v1 (ix3 b n e) d = ix3 b n d := by
    funext a
    match a with
    | ⟨0, _⟩ => rfl
    | ⟨1, _⟩ => rfl
    | ⟨2, _⟩ => rfl
  have er : ridx_main_v1 (ix3 b n e) d = ix2 d e := by
    funext a
    match a with
    | ⟨0, _⟩ => rfl
    | ⟨1, _⟩ => rfl
  rw [el, er, agg_value]

end Layer

/-! ## The statistics of one column and the result -/

section Stats

variable (x0 : (⟨S64x512x256, .f32⟩ : BufTy).Contents (Elt Ideal)) (x1 : (⟨S64x512x512, .f32⟩ : BufTy).Contents (Elt Ideal))
  (x2 : (⟨S64x512, .f32⟩ : BufTy).Contents (Elt Ideal)) (x3 : (⟨S256x256, .f32⟩ : BufTy).Contents (Elt Ideal))
  (x4 x5 x6 : (⟨S256, .f32⟩ : BufTy).Contents (Elt Ideal))

/-- Column `e` of the layer, as the program computes it. -/
abbrev col (e : Fin 256) : Fin 64 → Fin 512 → EReal := fun b n => val_main_v4 (F := Ideal) x0 x1 x3 x4 (ix3 b n e)

/-- The node mask by coordinates. -/
abbrev msk : Fin 64 → Fin 512 → EReal := fun b n => x2 (ix2 b n)

/-- The mask broadcast along the columns reads the mask at `(b, n)` (first use). -/
theorem mask7_value (b : Fin 64) (n : Fin 512) (e : Fin 256) : val_main_v7 (F := Ideal) x2 (ix3 b n e) = x2 (ix2 b n) := by
  rw [val_main_v7_apply, val_main_v5_apply]
  have h : idx_main_v5 (idx_main_v7 (ix3 b n e)) = ix2 b n := by
    funext a
    match a with
    | ⟨0, _⟩ => rfl
    | ⟨1, _⟩ => rfl
  rw [h]

/-- The same broadcast, second use. -/
theorem mask16_value (b : Fin 64) (n : Fin 512) (e : Fin 256) : val_main_v16 (F := Ideal) x2 (ix3 b n e) = x2 (ix2 b n) := by
  rw [val_main_v16_apply, val_main_v5_apply]
  have h : idx_main_v5 (idx_main_v16 (ix3 b n e)) = ix2 b n := by
    funext a
    match a with
    | ⟨0, _⟩ => rfl
    | ⟨1, _⟩ => rfl
  rw [h]

/-- The same broadcast, third use. -/
theorem mask36_value (b : Fin 64) (n : Fin 512) (e : Fin 256) : val_main_v36 (F := Ideal) x2 (ix3 b n e) = x2 (ix2 b n) := by
  rw [val_main_v36_apply, val_main_v5_apply]
  have h : idx_main_v5 (idx_main_v36 (ix3 b n e)) = ix2 b n := by
    funext a
    match a with
    | ⟨0, _⟩ => rfl
    | ⟨1, _⟩ => rfl
  rw [h]

/-- The number of valid nodes: the sum of the mask over all nodes of all graphs. -/
theorem count_value (i : S_.Idx) : val_main_v6 (F := Ideal) x2 i = Cert.Spec.cnt (msk x2) := by
  rw [val_main_v6_apply, val_main_cst_apply]
  show Ideal.ofBits .f32 0x00000000#32 + _ = _
  rw [Ideal.ofBits_zero_f32, zero_add, sum_idx2]
  rfl

/-- The masked sum of column `e`. -/
theorem sum1_value (e : Fin 256) :
    val_main_v9 (F := Ideal) x0 x1 x2 x3 x4 (ix1 e) = Cert.Spec.sum1 (col x0 x1 x3 x4 e) (msk x2) := by
  unfold val_main_v9
  simp only [Host.reduceAdd, Ideal.hostReduceAdd_def]
  refine (hostReduceAdd_d01 _ _ e).trans ?_
  rw [val_main_cst_0_apply]
  show Ideal.ofBits .f32 0x00000000#32 + _ = _
  rw [Ideal.ofBits_zero_f32, zero_add]
  unfold Cert.Spec.sum1
  refine Finset.sum_congr rfl fun b _ => Finset.sum_congr rfl fun n _ => ?_
  rw [val_main_v8_apply, mask7_value]
  rfl

/-- The mean of column `e`. -/
theorem mean_value (e : Fin 256) :
    val_main_v11 (F := Ideal) x0 x1 x2 x3 x4 (ix1 e)
      = Cert.Spec.mean (Cert.Spec.sum1 (col x0 x1 x3 x4 e) (msk x2)) (Cert.Spec.cnt (msk x2)) := by
  rw [val_main_v11_apply, val_main_v10_apply, sum1_value, count_value]
  rfl

/-- The mean broadcast back over the array reads the mean of the index's column (first use). -/
theorem mean13_value (b : Fin 64) (n : Fin 512) (e : Fin 256) :
    val_main_v13 (F := Ideal) x0 x1 x2 x3 x4 (ix3 b n e)
      = Cert.Spec.mean (Cert.Spec.sum1 (col x0 x1 x3 x4 e) (msk x2)) (Cert.Spec.cnt (msk x2)) := by
  rw [val_main_v13_apply, val_main_v12_apply]
  have h : idx_main_v12 (idx_main_v13 (ix3 b n e)) = ix1 e := by
    funext a
    match a with
    | ⟨0, _⟩ => rfl
  rw [h, mean_value]

/-- The same broadcast, second use. -/
theorem mean22_value (b : Fin 64) (n : Fin 512) (e : Fin 256) :
    val_main_v22 (F := Ideal) x0 x1 x2 x3 x4 (ix3 b n e)
      = Cert.Spec.mean (Cert.Spec.sum1 (col x0 x1 x3 x4 e) (msk x2)) (Cert.Spec.cnt (msk x2)) := by
  rw [val_main_v22_apply, val_main_v21_apply]
  have h : idx_main_v21 (idx_main_v22 (ix3 b n e)) = ix1 e := by
    funext a
    match a with
    | ⟨0, _⟩ => rfl
  rw [h, mean_value]

/-- The variance of column `e`: the masked mean of the squared deviations from the mean. -/
theorem var_value (e : Fin 256) :
    val_main_v20 (F := Ideal) x0 x1 x2 x3 x4 (ix1 e) = Cert.Spec.rvar (col x0 x1 x3 x4 e) (msk x2) := by
  rw [val_main_v20_apply, val_main_v19_apply, count_value]
  have hs : val_main_v18 (F := Ideal) x0 x1 x2 x3 x4 (ix1 e)
      = ∑ b : Fin 64, ∑ n : Fin 512,
          ((col x0 x1 x3 x4 e b n - Cert.Spec.mean (Cert.Spec.sum1 (col x0 x1 x3 x4 e) (msk x2)) (Cert.Spec.cnt (msk x2)))
            * (col x0 x1 x3 x4 e b n - Cert.Spec.mean (Cert.Spec.sum1 (col x0 x1 x3 x4 e) (msk x2)) (Cert.Spec.cnt (msk x2))))
            * msk x2 b n := by
    unfold val_main_v18
    simp only [Host.reduceAdd, Ideal.hostReduceAdd_def]
    refine (hostReduceAdd_d01 _ _ e).trans ?_
    rw [val_main_cst_1_apply]
    show Ideal.ofBits .f32 0x00000000#32 + _ = _
    rw [Ideal.ofBits_zero_f32, zero_add]
    refine Finset.sum_congr rfl fun b _ => Finset.sum_congr rfl fun n _ => ?_
    rw [val_main_v17_apply, val_main_v15_apply, val_main_v14_apply, mask16_value, mean13_value]
    rfl
  rw [hs]
  rfl

/-- The reciprocal standard deviation of column `e`. -/
theorem rstd_value (e : Fin 256) :
    val_main_v26 (F := Ideal) x0 x1 x2 x3 x4 (ix1 e)
      = Ideal.rsqrt (Cert.Spec.rvar (col x0 x1 x3 x4 e) (msk x2) + Cert.Spec.eps) := by
  rw [val_main_v26_apply, val_main_v25_apply, var_value, val_main_v24_apply, val_main_cst_2_apply]
  rfl

/-- The reciprocal standard deviation broadcast back over the array. -/
theorem rstd28_value (b : Fin 64) (n : Fin 512) (e : Fin 256) :
    val_main_v28 (F := Ideal) x0 x1 x2 x3 x4 (ix3 b n e)
      = Ideal.rsqrt (Cert.Spec.rvar (col x0 x1 x3 x4 e) (msk x2) + Cert.Spec.eps) := by
  rw [val_main_v28_apply, val_main_v27_apply]
  have h : idx_main_v27 (idx_main_v28 (ix3 b n e)) = ix1 e := by
    funext a
    match a with
    | ⟨0, _⟩ => rfl
  rw [h, rstd_value]

/-- The multiplier γ broadcast over the array. -/
theorem gamma_value (b : Fin 64) (n : Fin 512) (e : Fin 256) : val_main_v31 (F := Ideal) x5 (ix3 b n e) = x5 (ix1 e) := by
  rw [val_main_v31_apply, val_main_v30_apply]
  have h : idx_main_v30 (idx_main_v31 (ix3 b n e)) = ix1 e := by
    funext a
    match a with
    | ⟨0, _⟩ => rfl
  rw [h]

/-- The offset β broadcast over the array. -/
theorem beta_value (b : Fin 64) (n : Fin 512) (e : Fin 256) : val_main_v34 (F := Ideal) x6 (ix3 b n e) = x6 (ix1 e) := by
  rw [val_main_v34_apply, val_main_v33_apply]
  have h : idx_main_v33 (idx_main_v34 (ix3 b n e)) = ix1 e := by
    funext a
    match a with
    | ⟨0, _⟩ => rfl
  rw [h]

/-- The result at `(b, n, e)` over the program's own column: centre, normalise, scale, shift, mask, rectify. -/
theorem result_value (b : Fin 64) (n : Fin 512) (e : Fin 256) :
    val_main_v38 (F := Ideal) x0 x1 x2 x3 x4 x5 x6 (ix3 b n e)
      = Cert.Spec.rOut (col x0 x1 x3 x4 e) (msk x2) (x5 (ix1 e)) (x6 (ix1 e)) b n := by
  rw [val_main_v38_apply, val_main_call0_v0_apply, val_main_call0_cst_apply, val_main_v37_apply, val_main_v35_apply,
    val_main_v32_apply, val_main_v29_apply, val_main_v23_apply, mask36_value, beta_value, gamma_value, rstd28_value,
    mean22_value]
  show max _ (Ideal.ofBits .f32 0x00000000#32) = _
  rw [Ideal.ofBits_zero_f32]
  rfl

end Stats

/-! ## The theorem -/

/-- THE REFERENCE'S VALUE at `(b, n, e)` is the specification's `rOut` of column `e` of the layer, the mask by coordinates,
    and the column's multiplier and offset. -/
theorem ref_value (x0 : (⟨S64x512x256, .f32⟩ : BufTy).Contents (Elt Ideal)) (x1 : (⟨S64x512x512, .f32⟩ : BufTy).Contents (Elt Ideal)) (x2 : (⟨S64x512, .f32⟩ : BufTy).Contents (Elt Ideal)) (x3 : (⟨S256x256, .f32⟩ : BufTy).Contents (Elt Ideal)) (x4 x5 x6 : (⟨S256, .f32⟩ : BufTy).Contents (Elt Ideal)) (b : Fin 64) (n : Fin 512) (e : Fin 256) :
    Cert.ReferenceIdeal.Read.val_main_v38 (F := Ideal) x0 x1 x2 x3 x4 x5 x6 (ix3 b n e)
      = Cert.Spec.rOut (fun b n => Cert.Spec.lin (fun b n k => x1 (ix3 b n k)) (fun b k d => x0 (ix3 b k d)) (fun d e => x3 (ix2 d e)) (fun e => x4 (ix1 e)) b n e) (fun b n => x2 (ix2 b n)) (x5 (ix1 e)) (x6 (ix1 e)) b n := by
  have hcol : col x0 x1 x3 x4 e
      = fun b n => Cert.Spec.lin (fun b n k => x1 (ix3 b n k)) (fun b k d => x0 (ix3 b k d)) (fun d e => x3 (ix2 d e)) (fun e => x4 (ix1 e)) b n e :=
    funext fun b => funext fun n => layer_value x0 x1 x3 x4 b n e
  rw [result_value, hcol]

end Cert.RefValue

end
-- ==== Proof.Region1.lean ====
/- The second TensorCore region of the program (the normalisation: every element of the
   [64,512,256] array is scaled, shifted, masked and clamped at zero), as a closed form of the result array,
   and the whole program's run with the result array named. -/
import proofs.«169200_j14620068675981_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx

/-! # Region 1: one element of the result -/

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `r`, lane `d` of its block: the input element times the lane's scale plus the
    lane's shift, times the row's mask entry, clamped below at zero. -/
theorem normalize_apply (x0 : Vec Ideal S1x512x256 .f32) (x1 : Vec Ideal S1x512x1 .f32) (x2 : Vec Ideal S1x256 .f32)
    (x3 : Vec Ideal S1x256 .f32) (u : Fin 1) (r : Fin 512) (d : Fin 256) :
    (k1_pay1 x0 x1 x2 x3 : S1x512x256.Idx → EReal) (ix3 u r d)
      = max ((x0 (ix3 (0 : Fin 1) r d) * x2 (ix2 (0 : Fin 1) d) + x3 (ix2 (0 : Fin 1) d)) * x1 (ix3 (0 : Fin 1) r (0 : Fin 1))) 0 := by
  unfold k1_pay1
  refine (shapeCast_ab_1ab_apply _ _ u r d).trans ?_
  simp only [maximumf_apply, mulf_apply, addf_apply, broadcast_apply]
  rw [shapeCast_1ab_ab_apply, broadcastTo_1b_ab_apply, broadcastTo_1b_ab_apply, shapeCast_self, shapeCast_self,
    broadcastTo_column_apply, shapeCast_1ab_ab_apply]
  show max _ (Ideal.ofBits .f32 0x00000000#32) = _
  rw [Ideal.ofBits_zero_f32]

/-- The same at any index of the block. -/
theorem normalize_apply_idx (x0 : Vec Ideal S1x512x256 .f32) (x1 : Vec Ideal S1x512x1 .f32) (x2 : Vec Ideal S1x256 .f32)
    (x3 : Vec Ideal S1x256 .f32) (j : S1x512x256.Idx) :
    (k1_pay1 x0 x1 x2 x3 : S1x512x256.Idx → EReal) j
      = max ((x0 (ix3 (0 : Fin 1) (j 1) (j 2)) * x2 (ix2 (0 : Fin 1) (j 2)) + x3 (ix2 (0 : Fin 1) (j 2))) * x1 (ix3 (0 : Fin 1) (j 1) (0 : Fin 1))) 0 :=
  (congrArg (k1_pay1 x0 x1 x2 x3) (eq_ix3 j)).trans (normalize_apply x0 x1 x2 x3 (j 0) (j 1) (j 2))

/-! # Region 1: from the blocks to the array -/

/-- What the result array ends holding: every element of the input array times its lane's scale plus its lane's
    shift, times its row's mask entry, clamped below at zero. -/
abbrev normalized (a : S64x512x256.Idx → EReal) (mk : S64x512x1.Idx → EReal) (sc sh : S1x256.Idx → EReal) :
    S64x512x256.Idx → EReal := fun i =>
  max ((a i * sc (ix2 0 (i 2)) + sh (ix2 0 (i 2))) * mk (ix3 (i 0) (i 1) 0)) 0

/-- The body's stored value at index `j` of its block is `normalized` of the arrays at the array index `i`, when
    the four blocks hold the arrays' entries that `normalized` reads at `i`. -/
theorem normalized_of_blocks (a : S64x512x256.Idx → EReal) (mk : S64x512x1.Idx → EReal) (sc sh : S1x256.Idx → EReal)
    (x0 : Vec Ideal S1x512x256 .f32) (x1 : Vec Ideal S1x512x1 .f32) (x2 : Vec Ideal S1x256 .f32) (x3 : Vec Ideal S1x256 .f32)
    (j : S1x512x256.Idx) (i : S64x512x256.Idx)
    (h0 : x0 (ix3 (0 : Fin 1) (j 1) (j 2)) = a i)
    (h1 : x1 (ix3 (0 : Fin 1) (j 1) (0 : Fin 1)) = mk (ix3 (i 0) (i 1) 0))
    (h2 : x2 (ix2 (0 : Fin 1) (j 2)) = sc (ix2 0 (i 2)))
    (h3 : x3 (ix2 (0 : Fin 1) (j 2)) = sh (ix2 0 (i 2))) :
    (k1_pay1 x0 x1 x2 x3 : S1x512x256.Idx → EReal) j = normalized a mk sc sh i := by
  rw [normalize_apply_idx, h0, h1, h2, h3]

section Array

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid: at point `t` the input, the mask and the output are at block `t` along the
    first axis and at block 0 along the others; the scale and the shift are whole. -/
theorem index_facts : ∀ t : Fin cfg1.N,
    win1_4.index t (0 : Fin 3) = t.val ∧ win1_4.index t (1 : Fin 3) = 0 ∧ win1_4.index t (2 : Fin 3) = 0
    ∧ win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What point `t` writes back is block `t` of `normalized`. -/
theorem flushed_eq (c : Dev nD) (t : Fin cfg1.N) :
    (dat1 V c).flushed 4 t = ((cfg1.win 4).blk t).view.read (Elt Ideal) (normalized (V c main_v2_0) (V c main_v0) (V c main_v20) (V c main_v21)) := by
  show (cfg1.win 4).cut (grid1.coords t) ((dat1 V c).after 4 t) = _
  rw [after1_4]
  unfold out1_4
  rw [View.canon_unit_zero zeros3]
  simp only [View.ld_unit_zero (S := S1x512x256) zeros3, View.ld_unit_zero (S := S1x512x1) zeros3,
    View.ld_unit_zero (S := S1x256) zeros2]
  refine funext fun (j : S1x512x256.Idx) => ?_
  obtain ⟨e40, e41, e42, e00, e01, e02, e10, e11, e12, e20, e21, e30, e31⟩ := index_facts t
  refine normalized_of_blocks (V c main_v2_0) (V c main_v0) (V c main_v20) (V c main_v21)
    (iblk1 V c 0 t) (iblk1 V c 1 t) (iblk1 V c 2 t) (iblk1 V c 3 t) j (((cfg1.win 4).blk t).view.emb j) ?_ ?_ ?_ ?_
  · show (V c main_v2_0 : S64x512x256.Idx → EReal) (((cfg1.win 0).blk t).view.emb (ix3 (0 : Fin 1) (j 1) (j 2) : S1x512x256.Idx))
      = (V c main_v2_0 : S64x512x256.Idx → EReal) (((cfg1.win 4).blk t).view.emb j)
    refine congrArg (V c main_v2_0 : S64x512x256.Idx → EReal) (funext fun a => Fin.ext ?_)
    match a with
    | ⟨0, _⟩ =>
      show win1_0.index t (0 : Fin 3) * 1 + 1 * (0 : Fin 1).val = win1_4.index t (0 : Fin 3) * 1 + 1 * (j 0).val
      have hj : (j 0).val < 1 := (j 0).isLt
      have hz : ((0 : Fin 1) : Nat) = 0 := rfl
      omega
    | ⟨1, _⟩ =>
      show win1_0.index t (1 : Fin 3) * 512 + 1 * (j 1).val = win1_4.index t (1 : Fin 3) * 512 + 1 * (j 1).val
      omega
    | ⟨2, _⟩ =>
      show win1_0.index t (2 : Fin 3) * 256 + 1 * (j 2).val = win1_4.index t (2 : Fin 3) * 256 + 1 * (j 2).val
      omega
  · show (V c main_v0 : S64x512x1.Idx → EReal) (((cfg1.win 1).blk t).view.emb (ix3 (0 : Fin 1) (j 1) (0 : Fin 1) : S1x512x1.Idx))
      = (V c main_v0 : S64x512x1.Idx → EReal) (ix3 (((cfg1.win 4).blk t).view.emb j 0) (((cfg1.win 4).blk t).view.emb j 1) 0)
    refine congrArg (V c main_v0 : S64x512x1.Idx → EReal) (funext fun a => Fin.ext ?_)
    match a with
    | ⟨0, _⟩ =>
      show win1_1.index t (0 : Fin 3) * 1 + 1 * (0 : Fin 1).val = win1_4.index t (0 : Fin 3) * 1 + 1 * (j 0).val
      have hj : (j 0).val < 1 := (j 0).isLt
      have hz : ((0 : Fin 1) : Nat) = 0 := rfl
      omega
    | ⟨1, _⟩ =>
      show win1_1.index t (1 : Fin 3) * 512 + 1 * (j 1).val = win1_4.index t (1 : Fin 3) * 512 + 1 * (j 1).val
      omega
    | ⟨2, _⟩ =>
      show win1_1.index t (2 : Fin 3) * 1 + 1 * (0 : Fin 1).val = (0 : Fin 1).val
      have hz : ((0 : Fin 1) : Nat) = 0 := rfl
      omega
  · show (V c main_v20 : S1x256.Idx → EReal) (((cfg1.win 2).blk t).view.emb (ix2 (0 : Fin 1) (j 2) : S1x256.Idx))
      = (V c main_v20 : S1x256.Idx → EReal) (ix2 0 (((cfg1.win 4).blk t).view.emb j 2))
    refine congrArg (V c main_v20 : S1x256.Idx → EReal) (funext fun a => Fin.ext ?_)
    match a with
    | ⟨0, _⟩ =>
      show win1_2.index t (0 : Fin 2) * 1 + 1 * (0 : Fin 1).val = (0 : Fin 1).val
      have hz : ((0 : Fin 1) : Nat) = 0 := rfl
      omega
    | ⟨1, _⟩ =>
      show win1_2.index t (1 : Fin 2) * 256 + 1 * (j 2).val = win1_4.index t (2 : Fin 3) * 256 + 1 * (j 2).val
      omega
  · show (V c main_v21 : S1x256.Idx → EReal) (((cfg1.win 3).blk t).view.emb (ix2 (0 : Fin 1) (j 2) : S1x256.Idx))
      = (V c main_v21 : S1x256.Idx → EReal) (ix2 0 (((cfg1.win 4).blk t).view.emb j 2))
    refine congrArg (V c main_v21 : S1x256.Idx → EReal) (funext fun a => Fin.ext ?_)
    match a with
    | ⟨0, _⟩ =>
      show win1_3.index t (0 : Fin 2) * 1 + 1 * (0 : Fin 1).val = (0 : Fin 1).val
      have hz : ((0 : Fin 1) : Nat) = 0 := rfl
      omega
    | ⟨1, _⟩ =>
      show win1_3.index t (1 : Fin 2) * 256 + 1 * (j 2).val = win1_4.index t (2 : Fin 3) * 256 + 1 * (j 2).val
      omega

/-- An index of the result array is in point `t`'s block iff each coordinate is in the block's range on its axis. -/
theorem mem_block (t : Fin cfg1.N) (i : S64x512x256.Idx) :
    i ∈ ((cfg1.win 4).blk t).view.set ↔ ∀ a : Fin 3, win1_4.index t a * S1x512x256.size a ≤ (i a).val ∧ (i a).val < win1_4.index t a * S1x512x256.size a + S1x512x256.size a := by
  show i ∈ ((View.whole main_v22).slice (win1_4.rect t)).set ↔ _
  rw [View.set_slice_whole, Rect.mem_set_unit]
  exact Iff.rfl

/-- Every index of the result array is in the block of the point its first coordinate names. -/
theorem covered (i : S64x512x256.Idx) :
    ∃ t : Fin cfg1.N, (cfg1.win 4).flush t = true ∧ i ∈ ((cfg1.win 4).blk t).view.set := by
  have hi0 : (i 0).val < 64 := (i 0).isLt
  have ht : (i 0).val < cfg1.N := lt_of_lt_of_eq hi0 N_1.symm
  have hi1 : (i 1).val < 512 := (i 1).isLt
  have hi2 : (i 2).val < 256 := (i 2).isLt
  refine ⟨⟨(i 0).val, ht⟩, flush1_4 _, ?_⟩
  rw [mem_block]
  obtain ⟨e40, e41, e42, -⟩ := index_facts ⟨(i 0).val, ht⟩
  intro a
  match a with
  | ⟨0, _⟩ =>
    show win1_4.index ⟨(i 0).val, _⟩ (0 : Fin 3) * 1 ≤ (i 0).val ∧ (i 0).val < win1_4.index ⟨(i 0).val, _⟩ (0 : Fin 3) * 1 + 1
    have e : win1_4.index ⟨(i 0).val, ht⟩ (0 : Fin 3) = (i 0).val := e40
    omega
  | ⟨1, _⟩ =>
    show win1_4.index ⟨(i 0).val, _⟩ (1 : Fin 3) * 512 ≤ (i 1).val ∧ (i 1).val < win1_4.index ⟨(i 0).val, _⟩ (1 : Fin 3) * 512 + 512
    omega
  | ⟨2, _⟩ =>
    show win1_4.index ⟨(i 0).val, _⟩ (2 : Fin 3) * 256 ≤ (i 2).val ∧ (i 2).val < win1_4.index ⟨(i 0).val, _⟩ (2 : Fin 3) * 256 + 256
    omega

/-- THE RESULT ARRAY after region 1: `normalized` of the arrays as the region finds them. -/
theorem arr4 (c : Dev nD) : ((dat1 V c).arrAt 4 cfg1.N : S64x512x256.Idx → EReal)
    = normalized (V c main_v2_0) (V c main_v0) (V c main_v20) (V c main_v21) :=
  (dat1 V c).arrAt_eq_of_cover 4 (normalized (V c main_v2_0) (V c main_v0) (V c main_v20) (V c main_v21))
    (fun t _ => flushed_eq V c t) covered

end Array

/-! # The run, with the result array named -/

-- matching this statement against the launch theorem's conclusion unfolds plain definitions inside types
set_option backward.isDefEq.respectTransparency.types false in
/-- From any memory with zero counters, every weakly fair execution of the program on the TensorCores terminates,
    nothing faulting; every final state holds, in the result buffer, the contents at the last segment boundary, and
    has the argument arrays as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v22 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result buffer's contents at the last segment boundary: `normalized` of the four arrays as region 1 finds them
    (its write-backs folded over the grid, `arr4` at the region's entry contents). -/
theorem result_value (m : (ℓ : Loc nD τ sig) → Buf (Elt Ideal) ℓ) (ρ : Dev nD → PrngReg) (c : Dev nD) :
    (W4 m ρ c (Proc.devRef .tc main_v22) : S64x512x256.Idx → EReal)
      = normalized (V3 m ρ c main_v2_0) (V3 m ρ c main_v0) (V3 m ρ c main_v20) (V3 m ρ c main_v21) :=
  (W4_arr m ρ c 4).trans (arr4 (V3 m ρ) c)

end Cert.KernelIdeal.Region1

end
-- ==== Proof.Region0.lean ====
/-
  The first region of the kernel: one graph per grid point.  At graph `b` the body forms the layer
  `y = (adj · x) · W + bias` of that graph (two matrix products into zero accumulators, the bias row added to
  every node), stores it, and stores two row vectors: the masked column sums `Σ_n y·mk` and the masked column
  sums of squares `Σ_n (y·mk)·y`.  Here each of the three result arrays, after all 64 points, is read index by
  index as a term of the arrays the region finds.

  The steps: the body's values at an index (a matrix product into zero is the sum over the contracted axis; a
  change of float format is the identity on the extended reals; a unit axis dropped or added keeps the other
  coordinates; a row or a column broadcast reads its one row or column; a reduction over the node axis is the
  sum over the nodes); what a grid point writes back is the block of ONE whole-array function at that point,
  because every blocked operand moves with the grid coordinate on its first axis and the weights and the bias
  are whole at every point; the blocks of the 64 points cover each result array, point `b` covering graph `b`.
-/
import proofs.«169200_j14620068675981_1_alg».proof.Proof.Gen.KernelIdeal.Frame
import proofs.«169200_j14620068675981_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The body's values at an index -/

theorem agg_lhs0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem agg_lhs1 (i : S512x256.Idx) (q : dot_S512x512_S512x256_S512x256_1_0_0_1_n_n.contr.Idx) : (dot_S512x512_S512x256_S512x256_1_0_0_1_n_n.lhsIdx i q 1).val = (q ⟨0, by decide⟩).val :=
  dot_S512x512_S512x256_S512x256_1_0_0_1_n_n.lhsIdx_val_of_single rfl i q
theorem agg_rhs0 (i : S512x256.Idx) (q : dot_S512x512_S512x256_S512x256_1_0_0_1_n_n.contr.Idx) : (dot_S512x512_S512x256_S512x256_1_0_0_1_n_n.rhsIdx i q 0).val = (q ⟨0, by decide⟩).val :=
  dot_S512x512_S512x256_S512x256_1_0_0_1_n_n.rhsIdx_val_of_single rfl i q
theorem agg_rhs1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The first product, `adj · x` of one graph, at node `n` and feature `e`: the sum over the neighbours. -/
theorem agg_apply (a : FVec Ideal S512x512 .bf16) (b : FVec Ideal S512x256 .bf16) (n : Fin 512) (e : Fin 256) :
    matmul dot_S512x512_S512x256_S512x256_1_0_0_1_n_n none a b (constant (F := Ideal) S512x256 .f32 0x00000000#32) (ix2 n e)
      = ∑ k : Fin 512, a (ix2 n k) * b (ix2 k e) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 n e) ((contrEquiv1 dot_S512x512_S512x256_S512x256_1_0_0_1_n_n 512 rfl rfl).symm k) = ix2 n k := funext fun ax => Fin.ext (by
    match ax with
    | ⟨0, _⟩ => exact agg_lhs0 _ _
    | ⟨1, _⟩ => exact (agg_lhs1 _ _).trans hk)
  have er : dot_S512x512_S512x256_S512x256_1_0_0_1_n_n.rhsIdx (ix2 n e) ((contrEquiv1 dot_S512x512_S512x256_S512x256_1_0_0_1_n_n 512 rfl rfl).symm k) = ix2 k e := funext fun ax => Fin.ext (by
    match ax with
    | ⟨0, _⟩ => exact (agg_rhs0 _ _).trans hk
    | ⟨1, _⟩ => exact agg_rhs1 _ _)
  rw [el, er]

theorem proj_lhs0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem proj_lhs1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem proj_rhs0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem proj_rhs1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The second product, `(adj · x) · W`, at node `n` and column `e`: the sum over the features. -/
theorem proj_apply (a : FVec Ideal S512x256 .bf16) (b : FVec Ideal S256x256 .bf16) (n : Fin 512) (e : Fin 256) :
    matmul dot_S512x256_S256x256_S512x256_1_0_0_1_n_n none a b (constant (F := Ideal) S512x256 .f32 0x00000000#32) (ix2 n e)
      = ∑ k : Fin 256, a (ix2 n k) * b (ix2 k e) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 n e) ((contrEquiv1 dot_S512x256_S256x256_S512x256_1_0_0_1_n_n 256 rfl rfl).symm k) = ix2 n k := funext fun ax => Fin.ext (by
    match ax with
    | ⟨0, _⟩ => exact proj_lhs0 _ _
    | ⟨1, _⟩ => exact (proj_lhs1 _ _).trans hk)
  have er : dot_S512x256_S256x256_S512x256_1_0_0_1_n_n.rhsIdx (ix2 n e) ((contrEquiv1 dot_S512x256_S256x256_S512x256_1_0_0_1_n_n 256 rfl rfl).symm k) = ix2 k e := funext fun ax => Fin.ext (by
    match ax with
    | ⟨0, _⟩ => exact (proj_rhs0 _ _).trans hk
    | ⟨1, _⟩ => exact proj_rhs1 _ _)
  rw [el, er]

/-- A column `[512, 1]` broadcast over the 256 lanes reads, at `(n, e)`, the column at `n`. -/
theorem colBroadcast_apply {α : Type} (v : S512x1.Idx → α) (h : S512x1.Broadcasts S512x256) (n : Fin 512) (e : Fin 256) :
    broadcastTo S512x256 v h (ix2 n e) = v (ix2 n (0 : Fin 1)) := by
  refine broadcastTo_apply v h (ix2 n e) (ix2 n (0 : Fin 1)) fun ax => ?_
  match ax with
  | ⟨0, _⟩ => rfl
  | ⟨1, _⟩ => rfl

/-- A sum over the node axis of a `[512, 256]` vector, at column `e`: the sum over the nodes. -/
theorem nodeSum_apply (src : FVec Ideal S512x256 .f32) (h : S512x256.Reduces [0] S256) (hφ : FKind.Formats .f32)
    (hacc : (0x00000000#32 : BitVec 32) = FKind.add.neutral .f32 hφ) (e : Fin 256) :
    multiReduction (F := Ideal) .add [0] S256 src 0x00000000#32 h hφ hacc (ix1 e) = ∑ n : Fin 512, src (ix2 n e) :=
  (Ideal.multiReduction_add_single src 0x00000000#32 h hφ hacc (ix1 e)).trans
    (Finset.sum_congr rfl fun n _ => congrArg src (funext fun ax => Fin.ext (by
      match ax with
      | ⟨0, _⟩ => rfl
      | ⟨1, _⟩ => rfl)))

section Body

variable (x0 : Vec Ideal S1x512x512 .f32) (x1 : Vec Ideal S1x512x256 .f32) (x2 : Vec Ideal S1x512x1 .f32)
  (x3 : Vec Ideal S256x256 .f32) (x4 : Vec Ideal S1x256 .f32)

/-- The layer of one graph at node `n` and column `e`: both products into zero accumulators, the changes of
    format the identity, the bias row added. -/
theorem layer_apply (n : Fin 512) (e : Fin 256) :
    k0_pay2 (F := Ideal) x0 x1 x3 x4 (ix2 n e)
      = (∑ d : Fin 256, (∑ k : Fin 512, x0 (ix3 0 n k) * x1 (ix3 0 k d)) * x3 (ix2 d e)) + x4 (ix2 0 e) := by
  unfold k0_pay2
  refine (addf_apply _ _ _).trans (congrArg₂ (· + ·) ?_ ?_)
  · refine (proj_apply _ _ n e).trans (Finset.sum_congr rfl fun d _ => congrArg₂ (· * ·) ?_ rfl)
    refine (agg_apply _ _ n d).trans (Finset.sum_congr rfl fun k _ => ?_)
    exact congrArg₂ (· * ·) (shapeCast_1ab_ab_apply x0 _ n k) (shapeCast_1ab_ab_apply x1 _ k d)
  · exact (broadcastTo_1b_ab_apply _ _ n e).trans (congrFun (shapeCast_self x4 _) _)

/-- What the body stores into the first result's block: the layer, under a unit graph axis. -/
theorem stored5_apply (u : Fin 1) (n : Fin 512) (e : Fin 256) :
    k0_pay3 (F := Ideal) x0 x1 x3 x4 (ix3 u n e) = k0_pay2 (F := Ideal) x0 x1 x3 x4 (ix2 n e) := by
  unfold k0_pay3
  exact shapeCast_ab_1ab_apply _ _ u n e

/-- The masked layer at node `n` and column `e`: the layer times the node's mask. -/
theorem masked_apply (n : Fin 512) (e : Fin 256) :
    k0_pay4 (F := Ideal) x0 x1 x3 x4 x2 (ix2 n e) = k0_pay2 (F := Ideal) x0 x1 x3 x4 (ix2 n e) * x2 (ix3 0 n 0) := by
  unfold k0_pay4
  refine (mulf_apply _ _ _).trans (congrArg₂ (· * ·) rfl ?_)
  exact (colBroadcast_apply _ _ n e).trans (shapeCast_1ab_ab_apply x2 _ n 0)

/-- What the body stores into the second result's block: the masked column sums. -/
theorem stored6_apply (u v : Fin 1) (e : Fin 256) :
    k0_pay5 (F := Ideal) x0 x1 x3 x4 x2 (ix3 u v e)
      = ∑ n : Fin 512, k0_pay2 (F := Ideal) x0 x1 x3 x4 (ix2 n e) * x2 (ix3 0 n 0) := by
  unfold k0_pay5
  refine (shapeCast_ab_1ab_apply _ _ u v e).trans ?_
  refine (shapeCast_a_1a_apply _ _ v e).trans ?_
  refine (nodeSum_apply _ _ _ _ e).trans (Finset.sum_congr rfl fun n _ => ?_)
  exact masked_apply x0 x1 x2 x3 x4 n e

/-- What the body stores into the third result's block: the masked column sums of squares. -/
theorem stored7_apply (u v : Fin 1) (e : Fin 256) :
    k0_pay1 (F := Ideal) (k0_pay6 (F := Ideal) x0 x1 x3 x4 x2) (ix3 u v e)
      = ∑ n : Fin 512, (k0_pay2 (F := Ideal) x0 x1 x3 x4 (ix2 n e) * x2 (ix3 0 n 0)) * k0_pay2 (F := Ideal) x0 x1 x3 x4 (ix2 n e) := by
  unfold k0_pay1
  refine (shapeCast_ab_1ab_apply _ _ u v e).trans ?_
  unfold k0_pay6
  refine (shapeCast_a_1a_apply _ _ v e).trans ?_
  refine (nodeSum_apply _ _ _ _ e).trans (Finset.sum_congr rfl fun n _ => ?_)
  refine (mulf_apply _ _ _).trans (congrArg₂ (· * ·) ?_ rfl)
  exact masked_apply x0 x1 x2 x3 x4 n e

end Body

/-! ## One grid point: the stored blocks as terms of whole arrays

Over variables of the literal types: when the point's input blocks are graph `b` of the arrays (the weights and
the bias whole), what the body stores is graph `b` of the layer and of its two masked column sums. -/

section Point

variable (A : S64x512x512.Idx → EReal) (X : S64x512x256.Idx → EReal) (M : S64x512x1.Idx → EReal)
  (W : S256x256.Idx → EReal) (Bi : S1x256.Idx → EReal)

/-- The layer as a term of whole arrays: entry `(b, n, e)` of `adj · x · W + bias`. -/
def layer (b : Fin 64) (n : Fin 512) (e : Fin 256) : EReal :=
  Cert.Spec.lin (fun b n k => A (ix3 b n k)) (fun b k d => X (ix3 b k d)) (fun d e => W (ix2 d e)) (fun e => Bi (ix2 0 e)) b n e

variable (x0 : Vec Ideal S1x512x512 .f32) (x1 : Vec Ideal S1x512x256 .f32) (x2 : Vec Ideal S1x512x1 .f32)
  (x3 : Vec Ideal S256x256 .f32) (x4 : Vec Ideal S1x256 .f32) (b : Fin 64)
  (h0 : ∀ n k, x0 (ix3 0 n k) = A (ix3 b n k)) (h1 : ∀ k d, x1 (ix3 0 k d) = X (ix3 b k d))
  (h2 : ∀ n, x2 (ix3 0 n 0) = M (ix3 b n 0))
  (h3 : ∀ d e, x3 (ix2 d e) = W (ix2 d e)) (h4 : ∀ e, x4 (ix2 0 e) = Bi (ix2 0 e))

include h0 h1 h3 h4 in
/-- The body's layer on graph `b`'s blocks is graph `b` of the layer. -/
theorem layer_block (n : Fin 512) (e : Fin 256) :
    k0_pay2 (F := Ideal) x0 x1 x3 x4 (ix2 n e) = layer A X W Bi b n e := by
  refine (layer_apply x0 x1 x3 x4 n e).trans ?_
  unfold layer Cert.Spec.lin
  exact congrArg₂ (· + ·) (Finset.sum_congr rfl fun d _ => congrArg₂ (· * ·)
    (Finset.sum_congr rfl fun k _ => congrArg₂ (· * ·) (h0 n k) (h1 k d)) (h3 d e)) (h4 e)

include h0 h1 h3 h4 in
/-- The first stored block at an index `j` is the layer at the array index `i` over it. -/
theorem stored5_block (j : S1x512x256.Idx) (i : S64x512x256.Idx) (hi0 : i 0 = b) (hi1 : (i 1).val = (j 1).val)
    (hi2 : (i 2).val = (j 2).val) :
    k0_pay3 (F := Ideal) x0 x1 x3 x4 j = layer A X W Bi (i 0) (i 1) (i 2) := by
  obtain ⟨u, n, e, rfl⟩ : ∃ (u : Fin 1) (n : Fin 512) (e : Fin 256), j = ix3 u n e := ⟨j 0, j 1, j 2, eq_ix3 j⟩
  obtain rfl : i 1 = n := Fin.ext hi1
  obtain rfl : i 2 = e := Fin.ext hi2
  rw [hi0]
  exact (stored5_apply x0 x1 x3 x4 u _ _).trans (layer_block A X W Bi x0 x1 x3 x4 b h0 h1 h3 h4 _ _)

include h0 h1 h2 h3 h4 in
/-- The second stored block at an index `j` is the masked column sum of the layer at the array index `i` over it. -/
theorem stored6_block (j : S1x1x256.Idx) (i : S64x1x256.Idx) (hi0 : i 0 = b) (hi2 : (i 2).val = (j 2).val) :
    k0_pay5 (F := Ideal) x0 x1 x3 x4 x2 j = ∑ n : Fin 512, layer A X W Bi (i 0) n (i 2) * M (ix3 (i 0) n 0) := by
  obtain ⟨u, v, e, rfl⟩ : ∃ (u v : Fin 1) (e : Fin 256), j = ix3 u v e := ⟨j 0, j 1, j 2, eq_ix3 j⟩
  obtain rfl : i 2 = e := Fin.ext hi2
  rw [hi0]
  refine (stored6_apply x0 x1 x2 x3 x4 u v _).trans (Finset.sum_congr rfl fun n _ => ?_)
  exact congrArg₂ (· * ·) (layer_block A X W Bi x0 x1 x3 x4 b h0 h1 h3 h4 n _) (h2 n)

include h0 h1 h2 h3 h4 in
/-- The third stored block at an index `j` is the masked column sum of the layer's squares at the array index `i` over it. -/
theorem stored7_block (j : S1x1x256.Idx) (i : S64x1x256.Idx) (hi0 : i 0 = b) (hi2 : (i 2).val = (j 2).val) :
    k0_pay1 (F := Ideal) (k0_pay6 (F := Ideal) x0 x1 x3 x4 x2) j
      = ∑ n : Fin 512, (layer A X W Bi (i 0) n (i 2) * M (ix3 (i 0) n 0)) * layer A X W Bi (i 0) n (i 2) := by
  obtain ⟨u, v, e, rfl⟩ : ∃ (u v : Fin 1) (e : Fin 256), j = ix3 u v e := ⟨j 0, j 1, j 2, eq_ix3 j⟩
  obtain rfl : i 2 = e := Fin.ext hi2
  rw [hi0]
  refine (stored7_apply x0 x1 x2 x3 x4 u v _).trans (Finset.sum_congr rfl fun n _ => ?_)
  exact congrArg₂ (· * ·) (congrArg₂ (· * ·) (layer_block A X W Bi x0 x1 x3 x4 b h0 h1 h3 h4 n _) (h2 n))
    (layer_block A X W Bi x0 x1 x3 x4 b h0 h1 h3 h4 n _)

end Point

/-! ## The region's arrays and index maps -/

variable (V : (c : Dev nD) → (b : Ref sig .tc) → Buf (Elt Ideal) ((c : Thread nD τ).loc b))

/-- The layer of the arrays the region finds: `adj`, `x`, `W` and the bias row. -/
def yOf (c : Dev nD) (b : Fin 64) (n : Fin 512) (e : Fin 256) : EReal :=
  Cert.Spec.lin (fun b n k => (V c main_arg1 : S64x512x512.Idx → EReal) (ix3 b n k))
    (fun b k d => (V c main_arg0 : S64x512x256.Idx → EReal) (ix3 b k d))
    (fun d e => (V c main_arg3 : S256x256.Idx → EReal) (ix2 d e))
    (fun e => (V c main_v1 : S1x256.Idx → EReal) (ix2 0 e)) b n e

theorem hz3 : (![0, 0, 0] : Fin 3 → Nat) = fun _ => 0 := funext fun a => by fin_cases a <;> rfl
theorem hz2 : (![0, 0] : Fin 2 → Nat) = fun _ => 0 := funext fun a => by fin_cases a <;> rfl

/-- The graph a grid point works on. -/
def graphOf (t : Fin cfg0.N) : Fin 64 := Fin.cast N_0 t

/-- The grid point that works on a graph. -/
def pointOf (b : Fin 64) : Fin cfg0.N := Fin.cast N_0.symm b

/-- The index maps, decided over the grid: every blocked operand and result sits at block `(t, 0, 0)`, -/
theorem index_adj : ∀ t : Fin cfg0.N, win0_0.index t (0 : Fin 3) = t.val ∧ win0_0.index t (1 : Fin 3) = 0 ∧ win0_0.index t (2 : Fin 3) = 0 :=
  (by decide +kernel : ∀ t : Fin grid0.N, _)
theorem index_x : ∀ t : Fin cfg0.N, win0_1.index t (0 : Fin 3) = t.val ∧ win0_1.index t (1 : Fin 3) = 0 ∧ win0_1.index t (2 : Fin 3) = 0 :=
  (by decide +kernel : ∀ t : Fin grid0.N, _)
theorem index_mask : ∀ t : Fin cfg0.N, win0_2.index t (0 : Fin 3) = t.val ∧ win0_2.index t (1 : Fin 3) = 0 ∧ win0_2.index t (2 : Fin 3) = 0 :=
  (by decide +kernel : ∀ t : Fin grid0.N, _)
/-- the weights and the bias at block `(0, 0)`. -/
theorem index_w : ∀ t : Fin cfg0.N, win0_3.index t (0 : Fin 2) = 0 ∧ win0_3.index t (1 : Fin 2) = 0 :=
  (by decide +kernel : ∀ t : Fin grid0.N, _)
theorem index_bias : ∀ t : Fin cfg0.N, win0_4.index t (0 : Fin 2) = 0 ∧ win0_4.index t (1 : Fin 2) = 0 :=
  (by decide +kernel : ∀ t : Fin grid0.N, _)
theorem index_y : ∀ t : Fin cfg0.N, win0_5.index t (0 : Fin 3) = t.val ∧ win0_5.index t (1 : Fin 3) = 0 ∧ win0_5.index t (2 : Fin 3) = 0 :=
  (by decide +kernel : ∀ t : Fin grid0.N, _)
theorem index_s1 : ∀ t : Fin cfg0.N, win0_6.index t (0 : Fin 3) = t.val ∧ win0_6.index t (1 : Fin 3) = 0 ∧ win0_6.index t (2 : Fin 3) = 0 :=
  (by decide +kernel : ∀ t : Fin grid0.N, _)
theorem index_s2 : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The input blocks at a point, read off the arrays -/

/-- The adjacency block at point `t` is graph `t` of the adjacency array. -/
theorem adj_block (c : Dev nD) (t : Fin cfg0.N) (n k : Fin 512) :
    (iblk0 V c 0 t : Vec Ideal S1x512x512 .f32) (ix3 0 n k) = (V c main_arg1 : S64x512x512.Idx → EReal) (ix3 (graphOf t) n k) := by
  unfold iblk0
  rw [View.read_apply]
  refine congrArg (V c main_arg1 : S64x512x512.Idx → EReal) (funext fun a => Fin.ext ?_)
  obtain ⟨e0, e1, e2⟩ := index_adj t
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 512 + 1 * k.val = k.val; omega

/-- The feature block at point `t` is graph `t` of the feature array. -/
theorem x_block (c : Dev nD) (t : Fin cfg0.N) (k : Fin 512) (d : Fin 256) :
    (iblk0 V c 1 t : Vec Ideal S1x512x256 .f32) (ix3 0 k d) = (V c main_arg0 : S64x512x256.Idx → EReal) (ix3 (graphOf t) k d) := by
  unfold iblk0
  rw [View.read_apply]
  refine congrArg (V c main_arg0 : S64x512x256.Idx → EReal) (funext fun a => Fin.ext ?_)
  obtain ⟨e0, e1, e2⟩ := index_x t
  match a with
  | ⟨0, _⟩ => show win0_1.index t (0 : Fin 3) * 1 + 1 * 0 = t.val; omega
  | ⟨1, _⟩ => show win0_1.index t (1 : Fin 3) * 512 + 1 * k.val = k.val; omega
  | ⟨2, _⟩ => show win0_1.index t (2 : Fin 3) * 256 + 1 * d.val = d.val; omega

/-- The mask block at point `t` is graph `t` of the mask column array. -/
theorem mask_block (c : Dev nD) (t : Fin cfg0.N) (n : Fin 512) :
    (iblk0 V c 2 t : Vec Ideal S1x512x1 .f32) (ix3 0 n 0) = (V c main_v0 : S64x512x1.Idx → EReal) (ix3 (graphOf t) n 0) := by
  unfold iblk0
  rw [View.read_apply]
  refine congrArg (V c main_v0 : S64x512x1.Idx → EReal) (funext fun a => Fin.ext ?_)
  obtain ⟨e0, e1, e2⟩ := index_mask t
  match a with
  | ⟨0, _⟩ => show win0_2.index t (0 : Fin 3) * 1 + 1 * 0 = t.val; omega
  | ⟨1, _⟩ => show win0_2.index t (1 : Fin 3) * 512 + 1 * n.val = n.val; omega
  | ⟨2, _⟩ => show win0_2.index t (2 : Fin 3) * 1 + 1 * 0 = 0; omega

/-- The weight block at every point is the weight array. -/
theorem w_block (c : Dev nD) (t : Fin cfg0.N) (d e : Fin 256) :
    (iblk0 V c 3 t : Vec Ideal S256x256 .f32) (ix2 d e) = (V c main_arg3 : S256x256.Idx → EReal) (ix2 d e) := by
  unfold iblk0
  rw [View.read_apply]
  refine congrArg (V c main_arg3 : S256x256.Idx → EReal) (funext fun a => Fin.ext ?_)
  obtain ⟨e0, e1⟩ := index_w t
  match a with
  | ⟨0, _⟩ => show win0_3.index t (0 : Fin 2) * 256 + 1 * d.val = d.val; omega
  | ⟨1, _⟩ => show win0_3.index t (1 : Fin 2) * 256 + 1 * e.val = e.val; omega

/-- The bias block at every point is the bias row. -/
theorem bias_block (c : Dev nD) (t : Fin cfg0.N) (e : Fin 256) :
    (iblk0 V c 4 t : Vec Ideal S1x256 .f32) (ix2 0 e) = (V c main_v1 : S1x256.Idx → EReal) (ix2 0 e) := by
  unfold iblk0
  rw [View.read_apply]
  refine congrArg (V c main_v1 : S1x256.Idx → EReal) (funext fun a => Fin.ext ?_)
  obtain ⟨e0, e1⟩ := index_bias t
  match a with
  | ⟨0, _⟩ => show win0_4.index t (0 : Fin 2) * 1 + 1 * 0 = 0; omega
  | ⟨1, _⟩ => show win0_4.index t (1 : Fin 2) * 256 + 1 * e.val = e.val; omega

/-! ## The first result: the layer of every graph -/

/-- WHAT POINT `t` WRITES BACK to the first result is block `t` of the layer of the arrays. -/
theorem flushed_y (c : Dev nD) (t : Fin cfg0.N) :
    (dat0 V c).flushed 5 t
      = ((cfg0.win 5).blk t).view.read (Elt Ideal) (fun i : S64x512x256.Idx => yOf V c (i 0) (i 1) (i 2)) := by
  show (cfg0.win 5).cut (grid0.coords t) ((dat0 V c).after 5 t) = _
  rw [after0_5]
  unfold out0_5
  rw [View.canon_unit_zero hz3]
  simp only [View.ld_unit_zero (S := S1x512x512) hz3, View.ld_unit_zero (S := S1x512x256) hz3,
    View.ld_unit_zero (S := S256x256) hz2, View.ld_unit_zero (S := S1x256) hz2]
  funext j
  rw [View.read_apply]
  obtain ⟨e0, e1, e2⟩ := index_y t
  have hj0 : (j 0).val < 1 := (j 0).isLt
  exact stored5_block (V c main_arg1) (V c main_arg0) (V c main_arg3) (V c main_v1)
    (iblk0 V c 0 t) (iblk0 V c 1 t) (iblk0 V c 3 t) (iblk0 V c 4 t) (graphOf t)
    (adj_block V c t) (x_block V c t) (w_block V c t) (bias_block V c t) j (((cfg0.win 5).blk t).view.emb j)
    (Fin.ext (show win0_5.index t (0 : Fin 3) * 1 + 1 * (j 0).val = t.val by omega))
    (show win0_5.index t (1 : Fin 3) * 512 + 1 * (j 1).val = (j 1).val by omega)
    (show win0_5.index t (2 : Fin 3) * 256 + 1 * (j 2).val = (j 2).val by omega)

/-- An index of the first result is in point `t`'s block iff each coordinate is in the block's range. -/
theorem mem_blk_y (t : Fin cfg0.N) (i : S64x512x256.Idx) :
    i ∈ ((cfg0.win 5).blk t).view.set ↔ ∀ a : Fin 3, win0_5.index t a * S1x512x256.size a ≤ (i a).val
      ∧ (i a).val < win0_5.index t a * S1x512x256.size a + S1x512x256.size a := by
  show i ∈ ((View.whole main_v2_0).slice (win0_5.rect t)).set ↔ _
  rw [View.set_slice_whole, Rect.mem_set_unit]
  exact Iff.rfl

/-- Graph `b` of the first result is covered by point `b`. -/
theorem cover_y (i : S64x512x256.Idx) :
    ∃ t : Fin cfg0.N, (cfg0.win 5).flush t = true ∧ i ∈ ((cfg0.win 5).blk t).view.set := by
  refine ⟨pointOf (i 0), flush0_5 _, ?_⟩
  rw [mem_blk_y]
  obtain ⟨e0, e1, e2⟩ := index_y (pointOf (i 0))
  have ht : (pointOf (i 0)).val = (i 0).val := rfl
  have h1 : (i 1).val < 512 := (i 1).isLt
  have h2 : (i 2).val < 256 := (i 2).isLt
  intro a
  match a with
  | ⟨0, _⟩ => show win0_5.index (pointOf (i 0)) (0 : Fin 3) * 1 ≤ (i 0).val ∧ (i 0).val < win0_5.index (pointOf (i 0)) (0 : Fin 3) * 1 + 1; omega
  | ⟨1, _⟩ => show win0_5.index (pointOf (i 0)) (1 : Fin 3) * 512 ≤ (i 1).val ∧ (i 1).val < win0_5.index (pointOf (i 0)) (1 : Fin 3) * 512 + 512; omega
  | ⟨2, _⟩ => show win0_5.index (pointOf (i 0)) (2 : Fin 3) * 256 ≤ (i 2).val ∧ (i 2).val < win0_5.index (pointOf (i 0)) (2 : Fin 3) * 256 + 256; omega

/-- THE FIRST RESULT after all 64 points: the layer of every graph. -/
theorem arr5 (c : Dev nD) :
    ((dat0 V c).arrAt 5 cfg0.N : S64x512x256.Idx → EReal) = fun i => yOf V c (i 0) (i 1) (i 2) :=
  (dat0 V c).arrAt_eq_of_cover 5 (fun i : S64x512x256.Idx => yOf V c (i 0) (i 1) (i 2))
    (fun t _ => flushed_y V c t) cover_y

/-! ## The second result: the masked column sums of the layer of every graph -/

/-- Row `b`, column `e` of the masked column sums: the layer times the mask, summed over the nodes of graph `b`. -/
def colSum1 (c : Dev nD) : S64x1x256.Idx → EReal := fun i =>
  ∑ n : Fin 512, yOf V c (i 0) n (i 2) * (V c main_v0 : S64x512x1.Idx → EReal) (ix3 (i 0) n 0)

/-- WHAT POINT `t` WRITES BACK to the second result is block `t` of the masked column sums of the layer of the arrays. -/
theorem flushed_s1 (c : Dev nD) (t : Fin cfg0.N) :
    (dat0 V c).flushed 6 t = ((cfg0.win 6).blk t).view.read (Elt Ideal) (colSum1 V c) := by
  show (cfg0.win 6).cut (grid0.coords t) ((dat0 V c).after 6 t) = _
  rw [after0_6]
  unfold out0_6
  rw [View.canon_unit_zero hz3]
  simp only [View.ld_unit_zero (S := S1x512x512) hz3, View.ld_unit_zero (S := S1x512x256) hz3,
    View.ld_unit_zero (S := S1x512x1) hz3, View.ld_unit_zero (S := S256x256) hz2, View.ld_unit_zero (S := S1x256) hz2]
  funext j
  rw [View.read_apply]
  obtain ⟨e0, e1, e2⟩ := index_s1 t
  have hj0 : (j 0).val < 1 := (j 0).isLt
  exact stored6_block (V c main_arg1) (V c main_arg0) (V c main_v0) (V c main_arg3) (V c main_v1)
    (iblk0 V c 0 t) (iblk0 V c 1 t) (iblk0 V c 2 t) (iblk0 V c 3 t) (iblk0 V c 4 t) (graphOf t)
    (adj_block V c t) (x_block V c t) (mask_block V c t) (w_block V c t) (bias_block V c t) j (((cfg0.win 6).blk t).view.emb j)
    (Fin.ext (show win0_6.index t (0 : Fin 3) * 1 + 1 * (j 0).val = t.val by omega))
    (show win0_6.index t (2 : Fin 3) * 256 + 1 * (j 2).val = (j 2).val by omega)

/-- An index of the second result is in point `t`'s block iff each coordinate is in the block's range. -/
theorem mem_blk_s1 (t : Fin cfg0.N) (i : S64x1x256.Idx) :
    i ∈ ((cfg0.win 6).blk t).view.set ↔ ∀ a : Fin 3, win0_6.index t a * S1x1x256.size a ≤ (i a).val
      ∧ (i a).val < win0_6.index t a * S1x1x256.size a + S1x1x256.size a := by
  show i ∈ ((View.whole main_v2_1).slice (win0_6.rect t)).set ↔ _
  rw [View.set_slice_whole, Rect.mem_set_unit]
  exact Iff.rfl

/-- Row `b` of the second result is covered by point `b`. -/
theorem cover_s1 (i : S64x1x256.Idx) :
    ∃ t : Fin cfg0.N, (cfg0.win 6).flush t = true ∧ i ∈ ((cfg0.win 6).blk t).view.set := by
  refine ⟨pointOf (i 0), flush0_6 _, ?_⟩
  rw [mem_blk_s1]
  obtain ⟨e0, e1, e2⟩ := index_s1 (pointOf (i 0))
  have ht : (pointOf (i 0)).val = (i 0).val := rfl
  have h1 : (i 1).val < 1 := (i 1).isLt
  have h2 : (i 2).val < 256 := (i 2).isLt
  intro a
  match a with
  | ⟨0, _⟩ => show win0_6.index (pointOf (i 0)) (0 : Fin 3) * 1 ≤ (i 0).val ∧ (i 0).val < win0_6.index (pointOf (i 0)) (0 : Fin 3) * 1 + 1; omega
  | ⟨1, _⟩ => show win0_6.index (pointOf (i 0)) (1 : Fin 3) * 1 ≤ (i 1).val ∧ (i 1).val < win0_6.index (pointOf (i 0)) (1 : Fin 3) * 1 + 1; omega
  | ⟨2, _⟩ => show win0_6.index (pointOf (i 0)) (2 : Fin 3) * 256 ≤ (i 2).val ∧ (i 2).val < win0_6.index (pointOf (i 0)) (2 : Fin 3) * 256 + 256; omega

/-- THE SECOND RESULT after all 64 points: the masked column sums of the layer of every graph. -/
theorem arr6 (c : Dev nD) :
    ((dat0 V c).arrAt 6 cfg0.N : S64x1x256.Idx → EReal)
      = fun i => ∑ n : Fin 512, yOf V c (i 0) n (i 2) * (V c main_v0 : S64x512x1.Idx → EReal) (ix3 (i 0) n 0) :=
  (dat0 V c).arrAt_eq_of_cover 6 (colSum1 V c) (fun t _ => flushed_s1 V c t) cover_s1

/-! ## The third result: the masked column sums of the layer's squares of every graph -/

/-- Row `b`, column `e` of the masked column sums of squares: the masked layer times the layer, summed over the nodes of graph `b`. -/
def colSum2 (c : Dev nD) : S64x1x256.Idx → EReal := fun i =>
  ∑ n : Fin 512, (yOf V c (i 0) n (i 2) * (V c main_v0 : S64x512x1.Idx → EReal) (ix3 (i 0) n 0)) * yOf V c (i 0) n (i 2)

/-- WHAT POINT `t` WRITES BACK to the third result is block `t` of the masked column sums of the layer's squares of the arrays. -/
theorem flushed_s2 (c : Dev nD) (t : Fin cfg0.N) :
    (dat0 V c).flushed 7 t = ((cfg0.win 7).blk t).view.read (Elt Ideal) (colSum2 V c) := by
  show (cfg0.win 7).cut (grid0.coords t) ((dat0 V c).after 7 t) = _
  rw [after0_7]
  unfold out0_7
  rw [View.canon_unit_zero hz3]
  simp only [View.ld_unit_zero (S := S1x512x512) hz3, View.ld_unit_zero (S := S1x512x256) hz3,
    View.ld_unit_zero (S := S1x512x1) hz3, View.ld_unit_zero (S := S256x256) hz2, View.ld_unit_zero (S := S1x256) hz2]
  funext j
  rw [View.read_apply]
  obtain ⟨e0, e1, e2⟩ := index_s2 t
  have hj0 : (j 0).val < 1 := (j 0).isLt
  exact stored7_block (V c main_arg1) (V c main_arg0) (V c main_v0) (V c main_arg3) (V c main_v1)
    (iblk0 V c 0 t) (iblk0 V c 1 t) (iblk0 V c 2 t) (iblk0 V c 3 t) (iblk0 V c 4 t) (graphOf t)
    (adj_block V c t) (x_block V c t) (mask_block V c t) (w_block V c t) (bias_block V c t) j (((cfg0.win 7).blk t).view.emb j)
    (Fin.ext (show win0_7.index t (0 : Fin 3) * 1 + 1 * (j 0).val = t.val by omega))
    (show win0_7.index t (2 : Fin 3) * 256 + 1 * (j 2).val = (j 2).val by omega)

/-- An index of the third result is in point `t`'s block iff each coordinate is in the block's range. -/
theorem mem_blk_s2 (t : Fin cfg0.N) (i : S64x1x256.Idx) :
    i ∈ ((cfg0.win 7).blk t).view.set ↔ ∀ a : Fin 3, win0_7.index t a * S1x1x256.size a ≤ (i a).val
      ∧ (i a).val < win0_7.index t a * S1x1x256.size a + S1x1x256.size a := by
  show i ∈ ((View.whole main_v2_2).slice (win0_7.rect t)).set ↔ _
  rw [View.set_slice_whole, Rect.mem_set_unit]
  exact Iff.rfl

/-- Row `b` of the third result is covered by point `b`. -/
theorem cover_s2 (i : S64x1x256.Idx) :
    ∃ t : Fin cfg0.N, (cfg0.win 7).flush t = true ∧ i ∈ ((cfg0.win 7).blk t).view.set := by
  refine ⟨pointOf (i 0), flush0_7 _, ?_⟩
  rw [mem_blk_s2]
  obtain ⟨e0, e1, e2⟩ := index_s2 (pointOf (i 0))
  have ht : (pointOf (i 0)).val = (i 0).val := rfl
  have h1 : (i 1).val < 1 := (i 1).isLt
  have h2 : (i 2).val < 256 := (i 2).isLt
  intro a
  match a with
  | ⟨0, _⟩ => show win0_7.index (pointOf (i 0)) (0 : Fin 3) * 1 ≤ (i 0).val ∧ (i 0).val < win0_7.index (pointOf (i 0)) (0 : Fin 3) * 1 + 1; omega
  | ⟨1, _⟩ => show win0_7.index (pointOf (i 0)) (1 : Fin 3) * 1 ≤ (i 1).val ∧ (i 1).val < win0_7.index (pointOf (i 0)) (1 : Fin 3) * 1 + 1; omega
  | ⟨2, _⟩ => show win0_7.index (pointOf (i 0)) (2 : Fin 3) * 256 ≤ (i 2).val ∧ (i 2).val < win0_7.index (pointOf (i 0)) (2 : Fin 3) * 256 + 256; omega

/-- THE THIRD RESULT after all 64 points: the masked column sums of the layer's squares of every graph. -/
theorem arr7 (c : Dev nD) :
    ((dat0 V c).arrAt 7 cfg0.N : S64x1x256.Idx → EReal)
      = fun i => ∑ n : Fin 512, (yOf V c (i 0) n (i 2) * (V c main_v0 : S64x512x1.Idx → EReal) (ix3 (i 0) n 0)) * yOf V c (i 0) n (i 2) :=
  (dat0 V c).arrAt_eq_of_cover 7 (colSum2 V c) (fun t _ => flushed_s2 V c t) cover_s2

end Cert.KernelIdeal.Region0

end
-- ==== Proof.HostGlue.lean ====
/-
  The host operations around the two kernel launches, read at an index.

  Before the first launch the node mask is given a trailing unit axis and the bias a leading one.  Between the
  launches the per-graph partial sums are added up over the graphs, the mask is summed to the number of valid nodes,
  and the folded multiplier  g * rsqrt ((S2 / N - (S1 / N) * (S1 / N)) + eps)  and the folded offset
  be - (S1 / N) * multiplier  are formed, each then given a leading unit axis.  Every statement is over an arbitrary
  valuation of the buffers the stretch starts from.
-/
import proofs.«169200_j14620068675981_1_alg».proof.Proof.Gen.KernelIdeal.Frame
import proofs.«169200_j14620068675981_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HostGlue

open Cert.KernelIdeal Cert.KernelIdeal.Gen
open Idealize.ShloMosaic Idealize.ShloMosaic.TcCoe Idealize.ShloMosaic.ValueIdx
open scoped BigOperators

variable (Wv : Valuation τ sig (Elt Ideal))

/-! ## The first stretch: what it leaves alone -/

/-- The references the first stretch writes. -/
abbrev writes0 : List (Ref sig .tc) := [main_v0, main_v1]

theorem hostOps0_writes :
    (hostOps0 (F := Ideal)).Forall fun op => op.writes ⊆ (writes0.map (Proc.devRef (τ := τ) .tc)).toFinset := by
  simp only [List.Forall]
  repeat' apply And.intro
  all_goals
    simp only [StableHlo.unary_writes, StableHlo.reshape_writes, Finset.singleton_subset_iff, List.mem_toFinset]
    exact List.mem_map_of_mem (by decide)

/-- A buffer the first stretch does not write keeps its contents. -/
theorem after0_keep (r : Ref sig .tc) (hr : r ∉ writes0) :
    StableHlo.after (hostOps0 (F := Ideal)) Wv (Proc.devRef .tc r) = Wv (Proc.devRef .tc r) :=
  StableHlo.after_of_writes_sub hostOps0 Wv hostOps0_writes hr

/-! ## The first stretch: the mask with a trailing unit axis, the bias with a leading one -/

theorem after0_mask (b : Fin 64) (n : Fin 512) :
    (StableHlo.after (hostOps0 (F := Ideal)) Wv (Proc.devRef .tc main_v0) : S64x512x1.Idx → EReal) (ix3 b n 0)
      = (Wv (Proc.devRef .tc main_arg2) : S64x512.Idx → EReal) (ix2 b n) := by
  have e : (StableHlo.after (hostOps0 (F := Ideal)) Wv (Proc.devRef .tc main_v0) : S64x512x1.Idx → EReal)
      = broadcastInDim S64x512x1 ![0, 1] Facts₀.bcast_S64x512_S64x512x1_0_1 (Wv (Proc.devRef .tc main_arg2) : S64x512.Idx → EReal) := by
    dsimp only [hostOps0]; after_results
  rw [e]
  exact broadcastInDim_apply _ _ _ (ix3 b n 0) (ix2 b n) fun a => match a with | ⟨0, _⟩ => rfl | ⟨1, _⟩ => rfl

theorem after0_bias (e : Fin 256) :
    (StableHlo.after (hostOps0 (F := Ideal)) Wv (Proc.devRef .tc main_v1) : S1x256.Idx → EReal) (ix2 0 e)
      = (Wv (Proc.devRef .tc main_arg4) : S256.Idx → EReal) (ix1 e) := by
  have h : (StableHlo.after (hostOps0 (F := Ideal)) Wv (Proc.devRef .tc main_v1) : S1x256.Idx → EReal)
      = shapeCast S1x256 (Wv (Proc.devRef .tc main_arg4) : S256.Idx → EReal) Facts₀.shapeCasts_S256_S1x256 := by
    dsimp only [hostOps0]; after_results <;> rfl
  rw [h]
  exact shapeCast_a_1a_apply _ _ 0 e

/-! ## The second stretch: what it leaves alone -/

/-- The references the second stretch writes. -/
abbrev writes1 : List (Ref sig .tc) :=
  [main_cst, main_v3, main_cst_0, main_v4, main_v5, main_cst_1, main_v6, main_v7, main_v8, main_v9, main_v10, main_v11,
    main_v12, main_v13, main_cst_2, main_v14, main_v15, main_v16, main_v17, main_v18, main_v19, main_v20, main_v21]

theorem hostOps1_writes :
    (hostOps1 (F := Ideal)).Forall fun op => op.writes ⊆ (writes1.map (Proc.devRef (τ := τ) .tc)).toFinset := by
  simp only [List.Forall]
  repeat' apply And.intro
  all_goals
    simp only [StableHlo.nullary_writes, StableHlo.unary_writes, StableHlo.binary_writes, StableHlo.reshape_writes,
      Finset.singleton_subset_iff, List.mem_toFinset]
    exact List.mem_map_of_mem (by decide)

/-- A buffer the second stretch does not write keeps its contents. -/
theorem after1_keep (r : Ref sig .tc) (hr : r ∉ writes1) :
    StableHlo.after (hostOps1 (F := Ideal)) Wv (Proc.devRef .tc r) = Wv (Proc.devRef .tc r) :=
  StableHlo.after_of_writes_sub hostOps1 Wv hostOps1_writes hr

/-! ## The second stretch as vectors -/

/-- The number of valid nodes: the mask summed over both its axes from zero, a rank-0 array. -/
abbrev cntV : FVec Ideal S_ .f32 :=
  Host.reduceAdd (F := Ideal) (Wv (Proc.devRef .tc main_arg2) : FVec Ideal S64x512 .f32)
    (constant (F := Ideal) S_ .f32 0x00000000#32) Facts₀.reducesTo_S64x512_S_d0_1 Facts₀.h_S_

/-- Per-graph partial sums added up over the graphs from zero, the unit axis then dropped. -/
abbrev colSum (x : FVec Ideal S64x1x256 .f32) : FVec Ideal S256 .f32 :=
  shapeCast S256 (Host.reduceAdd (F := Ideal) x (constant (F := Ideal) S_ .f32 0x00000000#32)
    Facts₀.reducesTo_S64x1x256_S1x256_d0 Facts₀.h_S_) Facts₀.shapeCasts_S1x256_S256

/-- A column sum divided by the number of valid nodes. -/
abbrev meanV (x : FVec Ideal S64x1x256 .f32) : FVec Ideal S256 .f32 :=
  Host.divf (F := Ideal) (colSum x) (broadcastInDim S256 ![] Facts₀.bcast_S_S256 (cntV Wv))

/-- The folded multiplier as the host forms it. -/
abbrev scaleV : FVec Ideal S256 .f32 :=
  mulf (Wv (Proc.devRef .tc main_arg5) : FVec Ideal S256 .f32)
    (Host.rsqrt (addf
      (subf (meanV Wv (Wv (Proc.devRef .tc main_v2_2))) (mulf (meanV Wv (Wv (Proc.devRef .tc main_v2_1))) (meanV Wv (Wv (Proc.devRef .tc main_v2_1)))))
      (broadcastInDim S256 ![] Facts₀.bcast_S_S256 (constant (F := Ideal) S_ .f32 0x3727C5AC#32))))

/-- The folded offset as the host forms it. -/
abbrev shiftV : FVec Ideal S256 .f32 :=
  subf (Wv (Proc.devRef .tc main_arg6) : FVec Ideal S256 .f32) (mulf (meanV Wv (Wv (Proc.devRef .tc main_v2_1))) (scaleV Wv))

theorem after1_v20 :
    (StableHlo.after (hostOps1 (F := Ideal)) Wv (Proc.devRef .tc main_v20) : S1x256.Idx → EReal)
      = shapeCast S1x256 (scaleV Wv) Facts₀.shapeCasts_S256_S1x256 := by
  dsimp only [hostOps1]; after_results_simp <;> rfl

theorem after1_v21 :
    (StableHlo.after (hostOps1 (F := Ideal)) Wv (Proc.devRef .tc main_v21) : S1x256.Idx → EReal)
      = shapeCast S1x256 (shiftV Wv) Facts₀.shapeCasts_S256_S1x256 := by
  dsimp only [hostOps1]; after_results_simp <;> rfl

/-! ## The vectors at an index -/

/-- The number of valid nodes is the double sum of the mask. -/
theorem cntV_apply :
    cntV Wv ix0
      = (∑ b : Fin 64, ∑ n : Fin 512, (Wv (Proc.devRef .tc main_arg2) : S64x512.Idx → EReal) (ix2 b n) : EReal) := by
  unfold cntV
  rw [hostReduceAdd_apply, Ideal.hostReduceAdd_total _ (fun b => b.elim0), constant_apply, Ideal.ofBits_zero_f32,
    zero_add]
  exact sum_idx2 (n0 := 64) (n1 := 512) _

/-- A column sum at column `e` is the sum over the graphs of the partial sums there. -/
theorem colSum_apply (x : FVec Ideal S64x1x256 .f32) (e : Fin 256) :
    colSum x (ix1 e) = ∑ b : Fin 64, x (ix3 b 0 e) := by
  have h : S64x1x256.Reduces [0] S1x256 := by decide
  unfold colSum
  rw [shapeCast_1a_a_apply, hostReduceAdd_apply, Ideal.hostReduceAdd_single _ h, constant_apply, Ideal.ofBits_zero_f32,
    zero_add]
  refine Finset.sum_congr rfl fun b _ => congrArg x ?_
  funext a
  match a with
  | ⟨0, _⟩ => rfl
  | ⟨1, _⟩ => rfl
  | ⟨2, _⟩ => rfl

/-- A mean at column `e`. -/
theorem meanV_apply (x : FVec Ideal S64x1x256 .f32) (e : Fin 256) :
    meanV Wv x (ix1 e)
      = Ideal.div (∑ b : Fin 64, x (ix3 b 0 e))
          (∑ b : Fin 64, ∑ n : Fin 512, (Wv (Proc.devRef .tc main_arg2) : S64x512.Idx → EReal) (ix2 b n)) := by
  unfold meanV
  rw [hostDivf_apply, colSum_apply, broadcastInDim_scalar_apply, cntV_apply]

/-- The folded multiplier at column `e`. -/
theorem scaleV_apply (e : Fin 256) :
    scaleV Wv (ix1 e)
      = Cert.Spec.scale (∑ b : Fin 64, (Wv (Proc.devRef .tc main_v2_1) : S64x1x256.Idx → EReal) (ix3 b 0 e))
          (∑ b : Fin 64, (Wv (Proc.devRef .tc main_v2_2) : S64x1x256.Idx → EReal) (ix3 b 0 e))
          (∑ b : Fin 64, ∑ n : Fin 512, (Wv (Proc.devRef .tc main_arg2) : S64x512.Idx → EReal) (ix2 b n))
          ((Wv (Proc.devRef .tc main_arg5) : S256.Idx → EReal) (ix1 e)) := by
  unfold scaleV Cert.Spec.scale Cert.Spec.kvar Cert.Spec.mean Cert.Spec.eps
  rw [mulf_apply]
  show _ * Ideal.rsqrt _ = _
  rw [addf_apply, subf_apply, mulf_apply, meanV_apply, meanV_apply, broadcastInDim_scalar_apply, constant_apply]

/-- The folded offset at column `e`. -/
theorem shiftV_apply (e : Fin 256) :
    shiftV Wv (ix1 e)
      = Cert.Spec.shift (∑ b : Fin 64, (Wv (Proc.devRef .tc main_v2_1) : S64x1x256.Idx → EReal) (ix3 b 0 e))
          (∑ b : Fin 64, (Wv (Proc.devRef .tc main_v2_2) : S64x1x256.Idx → EReal) (ix3 b 0 e))
          (∑ b : Fin 64, ∑ n : Fin 512, (Wv (Proc.devRef .tc main_arg2) : S64x512.Idx → EReal) (ix2 b n))
          ((Wv (Proc.devRef .tc main_arg5) : S256.Idx → EReal) (ix1 e))
          ((Wv (Proc.devRef .tc main_arg6) : S256.Idx → EReal) (ix1 e)) := by
  unfold shiftV Cert.Spec.shift Cert.Spec.mean
  rw [subf_apply, mulf_apply, meanV_apply, scaleV_apply]

/-! ## The second stretch: the folded multiplier and offset, each with a leading unit axis -/

theorem after1_scale (e : Fin 256) :
    (StableHlo.after (hostOps1 (F := Ideal)) Wv (Proc.devRef .tc main_v20) : S1x256.Idx → EReal) (ix2 0 e)
      = Cert.Spec.scale (∑ b : Fin 64, (Wv (Proc.devRef .tc main_v2_1) : S64x1x256.Idx → EReal) (ix3 b 0 e))
          (∑ b : Fin 64, (Wv (Proc.devRef .tc main_v2_2) : S64x1x256.Idx → EReal) (ix3 b 0 e))
          (∑ b : Fin 64, ∑ n : Fin 512, (Wv (Proc.devRef .tc main_arg2) : S64x512.Idx → EReal) (ix2 b n))
          ((Wv (Proc.devRef .tc main_arg5) : S256.Idx → EReal) (ix1 e)) := by
  rw [after1_v20, shapeCast_a_1a_apply, scaleV_apply]

theorem after1_shift (e : Fin 256) :
    (StableHlo.after (hostOps1 (F := Ideal)) Wv (Proc.devRef .tc main_v21) : S1x256.Idx → EReal) (ix2 0 e)
      = Cert.Spec.shift (∑ b : Fin 64, (Wv (Proc.devRef .tc main_v2_1) : S64x1x256.Idx → EReal) (ix3 b 0 e))
          (∑ b : Fin 64, (Wv (Proc.devRef .tc main_v2_2) : S64x1x256.Idx → EReal) (ix3 b 0 e))
          (∑ b : Fin 64, ∑ n : Fin 512, (Wv (Proc.devRef .tc main_arg2) : S64x512.Idx → EReal) (ix2 b n))
          ((Wv (Proc.devRef .tc main_arg5) : S256.Idx → EReal) (ix1 e))
          ((Wv (Proc.devRef .tc main_arg6) : S256.Idx → EReal) (ix1 e)) := by
  rw [after1_v21, shapeCast_a_1a_apply, shiftV_apply]

/-! ## The same at the contents the run passes through: the launch memory, and the first region's exit -/

section AtTheRun
variable (m : (ℓ : Loc nD τ sig) → Buf (Elt Ideal) ℓ) (ρ : Dev nD → PrngReg) (c : Dev nD)
example (b : Fin 64) (n : Fin 512) :
    (W1 m ρ c (Proc.devRef .tc main_v0) : S64x512x1.Idx → EReal) (ix3 b n 0)
      = (W0 m ρ c (Proc.devRef .tc main_arg2) : S64x512.Idx → EReal) (ix2 b n) :=
  after0_mask (W0 m ρ c) b n
example : W1 m ρ c (Proc.devRef .tc main_arg1) = W0 m ρ c (Proc.devRef .tc main_arg1) :=
  after0_keep (W0 m ρ c) main_arg1 (by decide)
example : W3 m ρ c (Proc.devRef .tc main_v2_0) = W2 m ρ c (Proc.devRef .tc main_v2_0) :=
  after1_keep (W2 m ρ c) main_v2_0 (by decide)
example (e : Fin 256) :
    (W3 m ρ c (Proc.devRef .tc main_v21) : S1x256.Idx → EReal) (ix2 0 e)
      = Cert.Spec.shift (∑ b : Fin 64, (W2 m ρ c (Proc.devRef .tc main_v2_1) : S64x1x256.Idx → EReal) (ix3 b 0 e))
          (∑ b : Fin 64, (W2 m ρ c (Proc.devRef .tc main_v2_2) : S64x1x256.Idx → EReal) (ix3 b 0 e))
          (∑ b : Fin 64, ∑ n : Fin 512, (W2 m ρ c (Proc.devRef .tc main_arg2) : S64x512.Idx → EReal) (ix2 b n))
          ((W2 m ρ c (Proc.devRef .tc main_arg5) : S256.Idx → EReal) (ix1 e))
          ((W2 m ρ c (Proc.devRef .tc main_arg6) : S256.Idx → EReal) (ix1 e)) :=
  after1_shift (W2 m ρ c) e
end AtTheRun

end Cert.KernelIdeal.HostGlue

end
-- ==== Proof.Bridge.lean ====
/-
  The first program's result array, entry by entry, as a function of the launch arrays.

  Reading the run backwards: the result is what the second pass writes, `max ((y · scale + shift) · mask) 0`, of the arrays
  that pass finds; of those, `y` is the first pass's first output — the linear layer of the launch arrays — and the
  mask column is the launch mask; `scale` and `shift` are the host lines between the passes applied to the first
  pass's other two outputs, the per-graph masked sums `Σ_n y·m` and `Σ_n (y·m)·y`, which the host adds up over the 64
  graphs, and to `Σ mask`.  Substituting, the entry at graph `b`, node `n`, column `e` is `Spec.kOut` of column `e` of the
  layer and the mask.
-/
import proofs.«169200_j14620068675981_1_alg».proof.Proof.Gen.KernelIdeal.Frame
import proofs.«169200_j14620068675981_1_alg».proof.Proof.Spec
import proofs.«169200_j14620068675981_1_alg».proof.Proof.Region0
import proofs.«169200_j14620068675981_1_alg».proof.Proof.Region1
import proofs.«169200_j14620068675981_1_alg».proof.Proof.HostGlue
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The launch arrays -/

/-- The node features. -/
abbrev aX : S64x512x256.Idx → EReal := m ((c : Thread nD τ).loc main_arg0)
/-- The adjacency. -/
abbrev aA : S64x512x512.Idx → EReal := m ((c : Thread nD τ).loc main_arg1)
/-- The node mask. -/
abbrev aM : S64x512.Idx → EReal := m ((c : Thread nD τ).loc main_arg2)
/-- The weight. -/
abbrev aW : S256x256.Idx → EReal := m ((c : Thread nD τ).loc main_arg3)
/-- The bias. -/
abbrev aB : S256.Idx → EReal := m ((c : Thread nD τ).loc main_arg4)
/-- The affine scale. -/
abbrev aG : S256.Idx → EReal := m ((c : Thread nD τ).loc main_arg5)
/-- The affine shift. -/
abbrev aE : S256.Idx → EReal := m ((c : Thread nD τ).loc main_arg6)

/-- Column `e` of the linear layer of the launch arrays. -/
def col (e : Fin 256) : Fin 64 → Fin 512 → EReal := fun b n =>
  Cert.Spec.lin (fun b n k => aA m c (ix3 b n k)) (fun b k d => aX m c (ix3 b k d)) (fun d e => aW m c (ix2 d e))
    (fun e => aB m c (ix1 e)) b n e

/-- The mask by graph and node. -/
def msk : Fin 64 → Fin 512 → EReal := fun b n => aM m c (ix2 b n)

/-- A buffer's contents read as an array of extended reals of a literal shape. -/
abbrev asArray {s : Shape} (f : s.Idx → EReal) : s.Idx → EReal := f

/-! ## What the first pass finds -/

/-- A buffer the first host stretch does not write holds its launch contents when the first pass starts. -/
theorem entry_keep (r : Ref sig .tc) (hr : r ∉ HostGlue.writes0) :
    V1 m ρ c r = m ((c : Thread nD τ).loc r) :=
  HostGlue.after0_keep (W0 m ρ c) r hr

/-- The mask column the first pass finds is the launch mask. -/
theorem entry_mask (b : Fin 64) (n : Fin 512) :
    asArray (s := S64x512x1) (V1 m ρ c main_v0) (ix3 b n 0) = msk m c b n :=
  HostGlue.after0_mask (W0 m ρ c) b n

/-- The bias row the first pass finds is the launch bias. -/
theorem entry_bias (e : Fin 256) :
    asArray (s := S1x256) (V1 m ρ c main_v1) (ix2 0 e) = aB m c (ix1 e) :=
  HostGlue.after0_bias (W0 m ρ c) e

/-- The layer of the arrays the first pass finds is the layer of the launch arrays. -/
theorem layer_entry (b : Fin 64) (n : Fin 512) (e : Fin 256) :
    Region0.yOf (V1 m ρ) c b n e = col m c e b n := by
  have h1 : asArray (s := S64x512x512) (V1 m ρ c main_arg1) = aA m c := entry_keep m ρ c main_arg1 (by decide)
  have h0 : asArray (s := S64x512x256) (V1 m ρ c main_arg0) = aX m c := entry_keep m ρ c main_arg0 (by decide)
  have h3 : asArray (s := S256x256) (V1 m ρ c main_arg3) = aW m c := entry_keep m ρ c main_arg3 (by decide)
  have hb : (fun e : Fin 256 => asArray (s := S1x256) (V1 m ρ c main_v1) (ix2 0 e)) = fun e => aB m c (ix1 e) :=
    funext fun e => entry_bias m ρ c e
  show Cert.Spec.lin (fun b n k => asArray (s := S64x512x512) (V1 m ρ c main_arg1) (ix3 b n k))
      (fun b k d => asArray (s := S64x512x256) (V1 m ρ c main_arg0) (ix3 b k d))
      (fun d e => asArray (s := S256x256) (V1 m ρ c main_arg3) (ix2 d e))
      (fun e : Fin 256 => asArray (s := S1x256) (V1 m ρ c main_v1) (ix2 0 e)) b n e = _
  rw [h1, h0, h3, hb]
  rfl

/-! ## What the first pass leaves -/

/-- Its first output: the layer. -/
theorem exit_layer (b : Fin 64) (n : Fin 512) (e : Fin 256) :
    asArray (s := S64x512x256) (W2 m ρ c (Proc.devRef .tc main_v2_0)) (ix3 b n e) = col m c e b n := by
  have h : asArray (s := S64x512x256) (W2 m ρ c (Proc.devRef .tc main_v2_0))
      = fun i => Region0.yOf (V1 m ρ) c (i 0) (i 1) (i 2) := (W2_arr m ρ c 5).trans (Region0.arr5 (V1 m ρ) c)
  rw [h]
  exact layer_entry m ρ c b n e

/-- Its second output: per graph, the masked sum of the layer's column. -/
theorem exit_sum1 (b : Fin 64) (e : Fin 256) :
    asArray (s := S64x1x256) (W2 m ρ c (Proc.devRef .tc main_v2_1)) (ix3 b 0 e)
      = ∑ n : Fin 512, col m c e b n * msk m c b n := by
  have h : asArray (s := S64x1x256) (W2 m ρ c (Proc.devRef .tc main_v2_1))
      = fun i => ∑ n : Fin 512, Region0.yOf (V1 m ρ) c (i 0) n (i 2) * asArray (s := S64x512x1) (V1 m ρ c main_v0) (ix3 (i 0) n 0) :=
    (W2_arr m ρ c 6).trans (Region0.arr6 (V1 m ρ) c)
  rw [h]
  show (∑ n : Fin 512, Region0.yOf (V1 m ρ) c b n e * asArray (s := S64x512x1) (V1 m ρ c main_v0) (ix3 b n 0)) = _
  exact Finset.sum_congr rfl fun n _ => by rw [layer_entry, entry_mask]

/-- Its third output: per graph, the masked sum of the squares of the layer's column. -/
theorem exit_sum2 (b : Fin 64) (e : Fin 256) :
    asArray (s := S64x1x256) (W2 m ρ c (Proc.devRef .tc main_v2_2)) (ix3 b 0 e)
      = ∑ n : Fin 512, (col m c e b n * msk m c b n) * col m c e b n := by
  have h : asArray (s := S64x1x256) (W2 m ρ c (Proc.devRef .tc main_v2_2))
      = fun i => ∑ n : Fin 512, (Region0.yOf (V1 m ρ) c (i 0) n (i 2) * asArray (s := S64x512x1) (V1 m ρ c main_v0) (ix3 (i 0) n 0))
          * Region0.yOf (V1 m ρ) c (i 0) n (i 2) :=
    (W2_arr m ρ c 7).trans (Region0.arr7 (V1 m ρ) c)
  rw [h]
  show (∑ n : Fin 512, (Region0.yOf (V1 m ρ) c b n e * asArray (s := S64x512x1) (V1 m ρ c main_v0) (ix3 b n 0))
      * Region0.yOf (V1 m ρ) c b n e) = _
  exact Finset.sum_congr rfl fun n _ => by rw [layer_entry, entry_mask]

/-- The mask column is an input of the first pass: it leaves it as it found it. -/
theorem exit_mask (b : Fin 64) (n : Fin 512) :
    asArray (s := S64x512x1) (W2 m ρ c (Proc.devRef .tc main_v0)) (ix3 b n 0) = msk m c b n := by
  have h : asArray (s := S64x512x1) (W2 m ρ c (Proc.devRef .tc main_v0)) = asArray (s := S64x512x1) (V1 m ρ c main_v0) :=
    (W2_arr m ρ c 2).trans (((dat0 (V1 m ρ) c).arrAt_in 2 rfl _).trans (A_eq0 (V1 m ρ) c 2))
  rw [h]
  exact entry_mask m ρ c b n

/-- A launch array the first pass does not stage is untouched by it. -/
theorem exit_keep (r : Ref sig .tc) (hw : ∀ w, Pipeline.arrRef spec0 w ≠ r) (hr : r ∉ HostGlue.writes0) :
    W2 m ρ c (Proc.devRef .tc r) = m ((c : Thread nD τ).loc r) :=
  (W2_of_ne m ρ c r hw).trans (entry_keep m ρ c r hr)

theorem exit_maskArg : asArray (s := S64x512) (W2 m ρ c (Proc.devRef .tc main_arg2)) = aM m c :=
  exit_keep m ρ c main_arg2 (by decide) (by decide)

theorem exit_gamma : asArray (s := S256) (W2 m ρ c (Proc.devRef .tc main_arg5)) = aG m c :=
  exit_keep m ρ c main_arg5 (by decide) (by decide)

theorem exit_beta : asArray (s := S256) (W2 m ρ c (Proc.devRef .tc main_arg6)) = aE m c :=
  exit_keep m ρ c main_arg6 (by decide) (by decide)

/-! ## What the second pass finds -/

/-- The layer. -/
theorem second_layer (b : Fin 64) (n : Fin 512) (e : Fin 256) :
    asArray (s := S64x512x256) (V3 m ρ c main_v2_0) (ix3 b n e) = col m c e b n := by
  have h : asArray (s := S64x512x256) (V3 m ρ c main_v2_0) = asArray (s := S64x512x256) (W2 m ρ c (Proc.devRef .tc main_v2_0)) :=
    HostGlue.after1_keep (W2 m ρ c) main_v2_0 (by decide)
  rw [h]
  exact exit_layer m ρ c b n e

/-- The mask column. -/
theorem second_mask (b : Fin 64) (n : Fin 512) :
    asArray (s := S64x512x1) (V3 m ρ c main_v0) (ix3 b n 0) = msk m c b n := by
  have h : asArray (s := S64x512x1) (V3 m ρ c main_v0) = asArray (s := S64x512x1) (W2 m ρ c (Proc.devRef .tc main_v0)) :=
    HostGlue.after1_keep (W2 m ρ c) main_v0 (by decide)
  rw [h]
  exact exit_mask m ρ c b n

/-- The three sums the host lines take: over all graphs, of the per-graph sums and of the mask. -/
theorem total_sum1 (e : Fin 256) :
    (∑ b : Fin 64, asArray (s := S64x1x256) (W2 m ρ c (Proc.devRef .tc main_v2_1)) (ix3 b 0 e))
      = Cert.Spec.sum1 (col m c e) (msk m c) :=
  Finset.sum_congr rfl fun b _ => exit_sum1 m ρ c b e

theorem total_sum2 (e : Fin 256) :
    (∑ b : Fin 64, asArray (s := S64x1x256) (W2 m ρ c (Proc.devRef .tc main_v2_2)) (ix3 b 0 e))
      = Cert.Spec.sum2 (col m c e) (msk m c) :=
  Finset.sum_congr rfl fun b _ => exit_sum2 m ρ c b e

theorem total_cnt :
    (∑ b : Fin 64, ∑ n : Fin 512, asArray (s := S64x512) (W2 m ρ c (Proc.devRef .tc main_arg2)) (ix2 b n))
      = Cert.Spec.cnt (msk m c) := by
  rw [exit_maskArg]
  rfl

/-- The folded multiplier the second pass finds. -/
theorem second_scale (e : Fin 256) :
    asArray (s := S1x256) (V3 m ρ c main_v20) (ix2 0 e)
      = Cert.Spec.scale (Cert.Spec.sum1 (col m c e) (msk m c)) (Cert.Spec.sum2 (col m c e) (msk m c))
          (Cert.Spec.cnt (msk m c)) (aG m c (ix1 e)) := by
  refine (HostGlue.after1_scale (W2 m ρ c) e).trans ?_
  exact congr (congr (congr (congrArg Cert.Spec.scale (total_sum1 m ρ c e)) (total_sum2 m ρ c e)) (total_cnt m ρ c))
    (congrFun (exit_gamma m ρ c) (ix1 e))

/-- The folded offset the second pass finds. -/
theorem second_shift (e : Fin 256) :
    asArray (s := S1x256) (V3 m ρ c main_v21) (ix2 0 e)
      = Cert.Spec.shift (Cert.Spec.sum1 (col m c e) (msk m c)) (Cert.Spec.sum2 (col m c e) (msk m c))
          (Cert.Spec.cnt (msk m c)) (aG m c (ix1 e)) (aE m c (ix1 e)) := by
  refine (HostGlue.after1_shift (W2 m ρ c) e).trans ?_
  exact congr (congr (congr (congr (congrArg Cert.Spec.shift (total_sum1 m ρ c e)) (total_sum2 m ρ c e)) (total_cnt m ρ c))
    (congrFun (exit_gamma m ρ c) (ix1 e))) (congrFun (exit_beta m ρ c) (ix1 e))

/-! ## The result -/

/-- The result array at graph `b`, node `n`, column `e`. -/
theorem kernel_value (b : Fin 64) (n : Fin 512) (e : Fin 256) :
    asArray (s := S64x512x256) (W4 m ρ c (Proc.devRef .tc main_v22)) (ix3 b n e)
      = Cert.Spec.kOut (col m c e) (msk m c) (aG m c (ix1 e)) (aE m c (ix1 e)) b n := by
  refine (congrFun (Region1.result_value m ρ c) (ix3 b n e)).trans ?_
  show max ((asArray (s := S64x512x256) (V3 m ρ c main_v2_0) (ix3 b n e) * asArray (s := S1x256) (V3 m ρ c main_v20) (ix2 0 e)
      + asArray (s := S1x256) (V3 m ρ c main_v21) (ix2 0 e)) * asArray (s := S64x512x1) (V3 m ρ c main_v0) (ix3 b n 0)) 0 = _
  rw [second_layer, second_scale, second_shift, second_mask]
  rfl

end Cert.KernelIdeal.Bridge

end
-- ==== Proof.lean ====
/-
  The certificate: a graph-convolution layer `adj · x · W + bias` followed by a batch normalisation over the valid nodes
  of all graphs and a rectifier, computed in two passes over the batch against a one-pass formulation.

  The three frames are the generated ones (the reference's is its generated run with the result dropped), and the
  idealization rewrote nothing, so what is proved here is that the two idealized programs end with equal results.

  The first program's result array is `Spec.kOut` of the launch arrays (module Bridge, over the two regions' output arrays
  and the host lines between them); the second's is `Spec.rOut` (module RefValue).  Under the precondition every input
  entry is a real number and the mask is a 0/1 array (module PreDecode), the linear layer is then real (finite sums
  of products), and for real columns with a 0/1 mask the two arrangements of the normalisation agree (module Algebra).
-/
import proofs.«169200_j14620068675981_1_alg».proof.Defs
import proofs.«169200_j14620068675981_1_alg».proof.Proof.Gen.Kernel
import proofs.«169200_j14620068675981_1_alg».proof.Proof.Gen.Kernel.Skeleton
import proofs.«169200_j14620068675981_1_alg».proof.Proof.Gen.Kernel.Launch
import proofs.«169200_j14620068675981_1_alg».proof.Proof.Gen.Kernel.Points
import proofs.«169200_j14620068675981_1_alg».proof.Proof.Gen.Kernel.Frame
import proofs.«169200_j14620068675981_1_alg».proof.Proof.Gen.KernelIdeal
import proofs.«169200_j14620068675981_1_alg».proof.Proof.Gen.KernelIdeal.Skeleton
import proofs.«169200_j14620068675981_1_alg».proof.Proof.Gen.KernelIdeal.Launch
import proofs.«169200_j14620068675981_1_alg».proof.Proof.Gen.KernelIdeal.Points
import proofs.«169200_j14620068675981_1_alg».proof.Proof.Gen.KernelIdeal.Frame
import proofs.«169200_j14620068675981_1_alg».proof.Proof.Gen.ReferenceIdeal
import proofs.«169200_j14620068675981_1_alg».proof.Proof.Gen.Pre_finite_inputs
import proofs.«169200_j14620068675981_1_alg».proof.Proof.Gen.ReferenceIdeal.Run
import proofs.«169200_j14620068675981_1_alg».proof.Proof.Gen.ReferenceIdeal.Read
import proofs.«169200_j14620068675981_1_alg».proof.Proof.Spec
import proofs.«169200_j14620068675981_1_alg».proof.Proof.Algebra
import proofs.«169200_j14620068675981_1_alg».proof.Proof.PreDecode
import proofs.«169200_j14620068675981_1_alg».proof.Proof.RefValue
import proofs.«169200_j14620068675981_1_alg».proof.Proof.Region1
import proofs.«169200_j14620068675981_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition, the second program's result term is the
    first program's result array: entry by entry `rOut = kOut` of the same real data. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v38 m' c
      = Cert.KernelIdeal.Gen.W4 m ρ c (Proc.devRef .tc Cert.KernelIdeal.main_v22) := by
  rw [Cert.ReferenceIdeal.Read.val_main_v38_eq, h0, h1, h2, h3, h4, h5, h6]
  funext i
  obtain ⟨b, n, e, rfl⟩ : ∃ (b : Fin 64) (n : Fin 512) (e : Fin 256), i = ix3 b n e := ⟨i 0, i 1, i 2, eq_ix3 i⟩
  obtain ⟨r0, r1, r2, r3, r4, r5, r6, r01⟩ := Cert.PreDecode.decode _ _ _ _ _ _ _ hpre
  refine (Cert.RefValue.ref_value _ _ _ _ _ _ _ b n e).trans (Eq.trans ?_ (Cert.KernelIdeal.Bridge.kernel_value m ρ c b n e).symm)
  exact (Cert.Algebra.kOut_eq_rOut _ _ _ _
    (fun b n => Cert.Algebra.lin_real _ _ _ _ (fun _ _ _ => r1 _) (fun _ _ _ => r0 _) (fun _ _ => r3 _) (fun _ => r4 _) b n e)
    (fun _ _ => r01 _) (r5 _) (r6 _) b n).symm

theorem algebraic : Cert.algebraic_KernelIdeal_ReferenceIdeal := by
  intro m ρ m' ρ' hpre hagree
  refine ⟨fun c => Cert.KernelIdeal.Gen.W4 m ρ c (Proc.devRef .tc Cert.KernelIdeal.main_v22),
    Cert.KernelIdeal.Region1.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  exact result_eq m ρ m' c (hpre c) h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
